-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75_1)) (v1 : (c : Dev Cert.KernelIdeal.nD) → Buf (Elt Ideal) ((c.tc : Thread Cert.KernelIdeal.nD Cert.KernelIdeal.τ).loc Cert.KernelIdeal.main_v75_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_1) = v0 c
          ∧ r.2.mem ((c.tc : Thread Cert.KernelIdeal.nD Cert.KernelIdeal.τ).loc Cert.KernelIdeal.main_v75_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S2x128 .f32) (main_arg7 : FVec F S2x128 .f32) (main_arg8 : FVec F S128x64 .f32) (main_arg9 : FVec F S64 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S800000 32) (main_arg2 : IVec S800000 32) (main_arg3 : FVec F S3x128x128 .f32) (main_arg4 : FVec F S3x128x128 .f32) (main_arg5 : FVec F S3x128 .f32) (main_arg6 : FVec F S2x128 .f32) (main_arg7 : FVec F S2x128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_v13 main_v16
-- ==== Kernel.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S2x128 : Shape := ⟨2, ![2, 128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩
abbrev S5000 : Shape := ⟨1, ![5000]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 100
  | .vmem => 41
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S2x128, .f32⟩
  | .hbm, ⟨7, _⟩ => ⟨S2x128, .f32⟩
  | .hbm, ⟨8, _⟩ => ⟨S128x64, .f32⟩
  | .hbm, ⟨9, _⟩ => ⟨S64, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S1x128x128, .f32⟩
  | .hbm, ⟨37, _⟩ => ⟨S128x128, .f32⟩
  | .hbm, ⟨38, _⟩ => ⟨S1x128x128, .f32⟩
  | .hbm, ⟨39, _⟩ => ⟨S128x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S1x128, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x128x128, .f32⟩
  | .hbm, ⟨64, _⟩ => ⟨S128x128, .f32⟩
  | .hbm, ⟨65, _⟩ => ⟨S1x128x128, .f32⟩
  | .hbm, ⟨66, _⟩ => ⟨S128x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S1x128, .f32⟩
  | .hbm, ⟨74, _⟩ => ⟨S128, .f32⟩
  | .hbm, ⟨75, _⟩ => ⟨S1x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S1x128x128, .f32⟩
  | .hbm, ⟨91, _⟩ => ⟨S128x128, .f32⟩
  | .hbm, ⟨92, _⟩ => ⟨S1x128x128, .f32⟩
  | .hbm, ⟨93, _⟩ => ⟨S128x128, .f32⟩
  | .hbm, ⟨94, _⟩ => ⟨S1x128, .f32⟩
  | .hbm, ⟨95, _⟩ => ⟨S128, .f32⟩
  | .hbm, ⟨96, _⟩ => ⟨S1x128, .f32⟩
  | .hbm, ⟨97, _⟩ => ⟨S1x64, .f32⟩
  | .hbm, ⟨98, _⟩ => ⟨S50000x128, .f32⟩
  | .hbm, ⟨99, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S128x64, .f32⟩
  | .local _ .vmem, ⟨36, _⟩ => ⟨S1x64, .f32⟩
  | .local _ .vmem, ⟨37, _⟩ => ⟨S5000x128, .f32⟩
  | .local _ .vmem, ⟨38, _⟩ => ⟨S5000x128, .f32⟩
  | .local _ .vmem, ⟨39, _⟩ => ⟨S5000x64, .f32⟩
  | .local _ .vmem, ⟨40, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_8 : Ref sig .tc := ⟨.hbm, 77, rfl⟩
abbrev main_v57 : Ref sig .tc := ⟨.hbm, 78, rfl⟩
abbrev main_v58 : Ref sig .tc := ⟨.hbm, 79, rfl⟩
abbrev main_c_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75_0 : Ref sig .tc := ⟨.hbm, 98, rfl⟩
abbrev main_v75_1 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc2_stg9_0 : Ref sig .tc := ⟨.vmem, 39, rfl⟩
abbrev cc2_stg9_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38
abbrev cc2_sem9_0 : DmaSem sig := 39
abbrev cc2_sem9_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S5000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  slices_S2x128_S1x128_0_0 : S2x128.Slices ![0, 0] S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S50000x64.size a
  hwx2_9 : ∀ i : grid2.Coords, EltTy.bits .f32 = 32 ∨ (Rect.block (s := S50000x64) S5000x64.size (cc2_transform_9 i) (hinb2_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v74) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v75_0) S5000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v75_1) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S2x128 : Shape := ⟨2, ![2, 128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x64 : Shape := ⟨2, ![50000, 64]⟩
abbrev S1x64 : Shape := ⟨2, ![1, 64]⟩

abbrev nBuf : Space → Nat
  | .hbm => 185
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S3x128x128, .f32⟩
  | 4 => ⟨S3x128x128, .f32⟩
  | 5 => ⟨S3x128, .f32⟩
  | 6 => ⟨S2x128, .f32⟩
  | 7 => ⟨S2x128, .f32⟩
  | 8 => ⟨S128x64, .f32⟩
  | 9 => ⟨S64, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000x1, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128x128, .f32⟩
  | 42 => ⟨S128x128, .f32⟩
  | 43 => ⟨S50000x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S128, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x128, .f32⟩
  | 65 => ⟨S50000x128, .f32⟩
  | 66 => ⟨S50000x128, .f32⟩
  | 67 => ⟨S_, .f32⟩
  | 68 => ⟨S50000, .f32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x1, .f32⟩
  | 80 => ⟨S50000x1, .f32⟩
  | 81 => ⟨S50000x1, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x1, .f32⟩
  | 101 => ⟨S50000x128, .f32⟩
  | 102 => ⟨S50000x128, .f32⟩
  | 103 => ⟨S1x128x128, .f32⟩
  | 104 => ⟨S128x128, .f32⟩
  | 105 => ⟨S50000x128, .f32⟩
  | 106 => ⟨S1x128x128, .f32⟩
  | 107 => ⟨S128x128, .f32⟩
  | 108 => ⟨S50000x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S128, .f32⟩
  | 123 => ⟨S_, .f32⟩
  | 124 => ⟨S50000, .f32⟩
  | 125 => ⟨S50000x1, .f32⟩
  | 126 => ⟨S_, .f32⟩
  | 127 => ⟨S50000x1, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S_, .f32⟩
  | 5 => ⟨S50000, .f32⟩
  | 6 => ⟨S50000x1, .f32⟩
  | 7 => ⟨S_, .f32⟩
  | 8 => ⟨S50000x1, .f32⟩
  | 9 => ⟨S50000x1, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000x1, .f32⟩
  | 17 => ⟨S50000x1, .f32⟩
  | 18 => ⟨S50000x1, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x1, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S1x128x128, .f32⟩
  | 44 => ⟨S128x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S50000x128, .f32⟩
  | 53 => ⟨S50000x64, .f32⟩
  | 54 => ⟨S1x64, .f32⟩
  | 55 => ⟨S50000x64, .f32⟩
  | 56 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_10 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_call1_cst : Ref sig .tc := ⟨.hbm, 116, rfl⟩
abbrev main_call1_v0 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_13 : Ref sig .tc := ⟨.hbm, 123, rfl⟩
abbrev main_v94 : Ref sig .tc := ⟨.hbm, 124, rfl⟩
abbrev main_v95 : Ref sig .tc := ⟨.hbm, 125, rfl⟩
abbrev main_cst_14 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_15 : Ref sig .tc := ⟨.hbm, 132, rfl⟩
abbrev main_v101 : Ref sig .tc := ⟨.hbm, 133, rfl⟩
abbrev main_v102 : Ref sig .tc := ⟨.hbm, 134, rfl⟩
abbrev main_cst_16 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_17 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_c_18 : Ref sig .tc := ⟨.hbm, 152, rfl⟩
abbrev main_v118 : Ref sig .tc := ⟨.hbm, 153, rfl⟩
abbrev main_v119 : Ref sig .tc := ⟨.hbm, 154, rfl⟩
abbrev main_c_19 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_20 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128_S1x128_0_0 : S2x128.Slices ![0, 0] S1x128
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run with its two result arrays named.

  @main is six segments: host operations, the first middle layer's grid, host operations, the second middle layer's grid,
  host operations, the last layer's grid.  The buffer contents at each segment boundary are a fold from the launch memory
  (`Gen.W0` … `Gen.W6`); every weakly fair execution ends with every unscoped buffer at the last boundary's contents.
  Read at the two result buffers this names the class scores and the embedding as `Gen.W6` there; read at the arguments
  it says they end as launched.
-/
import proofs.«107849_j42949672960221_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the class scores and the embedding at the last
    boundary's contents and the ten arguments as launched. -/
theorem run_results : θ_run defs (onTc (τ := τ) (main (F := F))) ⟨m, fun _ => 0, ρ⟩ (fun r => ∀ c : Dev nD,
      r.2.mem ((c.tc : Thread nD τ).loc main_v75_1) = W6 m ρ c (Proc.devRef .tc main_v75_1)
      ∧ r.2.mem ((c.tc : Thread nD τ).loc main_v75_0) = W6 m ρ c (Proc.devRef .tc main_v75_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v75_1 (by decide)),
       h c _ (mem_uc main_v75_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KRun

end
-- ==== Proof.Spec.lean ====
/-
  The mathematics of one GraphSAGE layer, row by row, on the extended reals.

  A node's row `h` (128 features), the sum `a` of its in-neighbours' rows and the reciprocal `iv` of its clamped in-degree
  give the convolution's row
      y c = Σ_k h k · Ws k c  +  Σ_k (a k · iv) · Wn k c  +  b c  +  h c        (`convRow`: self term, mean-neighbour term, bias, residual).
  A middle layer then takes `r = max y 0`, its mean `μ = (Σ_k r k) / 128` and variance `v = (Σ_k (r k − μ)²) / 128` over the row,
  and returns `g c · (r c − μ) · rsqrt (v + ε) + be c` (`normRow`).  The last layer returns `y` itself (the embedding) and
  the class scores `Σ_k y k · Wo k c + bo c` (`logitRow`).
  Everything a row's result depends on is that row, so a result array and any block of whole rows of it are the same
  function of the rows; `midArr`, `convArr`, `logitArr` state the arrays over literal shapes.
  The three float literals are kept as their bit patterns: both programs spell the same words.
-/
import Idealize.ShloMosaic.PureOps.Ideal
import Idealize.ShloMosaic.Lib.ValueIdx

noncomputable section

open scoped BigOperators

namespace Cert.Sage

open Idealize.ShloMosaic Idealize.ShloMosaic.ValueIdx

/-- The f32 word of `0.0`. -/
def zeroW : EReal := Ideal.ofBits .f32 0x00000000#32
/-- The f32 word of `128.0`, the row length both means divide by. -/
def lenW : EReal := Ideal.ofBits .f32 0x43000000#32
/-- The f32 word nearest `1e-5`, the variance's offset. -/
def epsW : EReal := Ideal.ofBits .f32 0x3727C5AC#32

/-- One row of the convolution: self term, mean-neighbour term, bias, residual, added in that order. -/
def convRow (h a : Fin 128 → EReal) (iv : EReal) (Ws Wn : Fin 128 → Fin 128 → EReal) (b : Fin 128 → EReal)
    (c : Fin 128) : EReal :=
  (∑ k : Fin 128, h k * Ws k c) + (∑ k : Fin 128, (a k * iv) * Wn k c) + b c + h c

/-- The rectified row. -/
def reluRow (y : Fin 128 → EReal) (c : Fin 128) : EReal := max (y c) zeroW

/-- A row's mean: its sum divided by the row length. -/
def meanRow (r : Fin 128 → EReal) : EReal := Ideal.div (∑ k : Fin 128, r k) lenW

/-- A row's squared deviations from a centre. -/
def sqDev (r : Fin 128 → EReal) (mu : EReal) (k : Fin 128) : EReal := (r k - mu) * (r k - mu)

/-- The rectified row, normalized over the row and scaled: `g · (r − μ) · rsqrt (var + ε) + be`. -/
def normRow (y g be : Fin 128 → EReal) (c : Fin 128) : EReal :=
  g c * (reluRow y c - meanRow (reluRow y)) * Ideal.rsqrt (meanRow (sqDev (reluRow y) (meanRow (reluRow y))) + epsW) + be c

/-- A middle layer's row. -/
def midRow (h a : Fin 128 → EReal) (iv : EReal) (Ws Wn : Fin 128 → Fin 128 → EReal) (b g be : Fin 128 → EReal)
    (c : Fin 128) : EReal :=
  normRow (convRow h a iv Ws Wn b) g be c

/-- A row of class scores. -/
def logitRow (e : Fin 128 → EReal) (Wo : Fin 128 → Fin 64 → EReal) (bo : Fin 64 → EReal) (c : Fin 64) : EReal :=
  (∑ k : Fin 128, e k * Wo k c) + bo c

/-! ## The arrays, over `n` rows -/

/-- Row `p` of an `[n, 128]` array. -/
def rowOf {n : Nat} (X : (⟨2, ![n, 128]⟩ : Shape).Idx → EReal) (p : Fin n) (k : Fin 128) : EReal := X (ix2 p k)
/-- A `[128, m]` matrix by coordinates. -/
def matOf {m : Nat} (W : (⟨2, ![128, m]⟩ : Shape).Idx → EReal) (k : Fin 128) (c : Fin m) : EReal := W (ix2 k c)
/-- A `[1, m]` row vector by its coordinate. -/
def vecOf {m : Nat} (v : (⟨2, ![1, m]⟩ : Shape).Idx → EReal) (c : Fin m) : EReal := v (ix2 (0 : Fin 1) c)

/-- The convolution of `n` rows: features `H`, neighbour sums `A`, reciprocal degrees `I` as a column. -/
def convArr {n : Nat} (H A : (⟨2, ![n, 128]⟩ : Shape).Idx → EReal) (I : (⟨2, ![n, 1]⟩ : Shape).Idx → EReal)
    (Ws Wn : (⟨2, ![128, 128]⟩ : Shape).Idx → EReal) (b : (⟨2, ![1, 128]⟩ : Shape).Idx → EReal) :
    (⟨2, ![n, 128]⟩ : Shape).Idx → EReal := fun i =>
  convRow (rowOf H ⟨(i 0).val, (i 0).isLt⟩) (rowOf A ⟨(i 0).val, (i 0).isLt⟩) (I (ix2 ⟨(i 0).val, (i 0).isLt⟩ (0 : Fin 1)))
    (matOf Ws) (matOf Wn) (vecOf b) ⟨(i 1).val, (i 1).isLt⟩

/-- A middle layer on `n` rows. -/
def midArr {n : Nat} (H A : (⟨2, ![n, 128]⟩ : Shape).Idx → EReal) (I : (⟨2, ![n, 1]⟩ : Shape).Idx → EReal)
    (Ws Wn : (⟨2, ![128, 128]⟩ : Shape).Idx → EReal) (b g be : (⟨2, ![1, 128]⟩ : Shape).Idx → EReal) :
    (⟨2, ![n, 128]⟩ : Shape).Idx → EReal := fun i =>
  midRow (rowOf H ⟨(i 0).val, (i 0).isLt⟩) (rowOf A ⟨(i 0).val, (i 0).isLt⟩) (I (ix2 ⟨(i 0).val, (i 0).isLt⟩ (0 : Fin 1)))
    (matOf Ws) (matOf Wn) (vecOf b) (vecOf g) (vecOf be) ⟨(i 1).val, (i 1).isLt⟩

/-- The class scores of `n` embedding rows. -/
def logitArr {n : Nat} (E : (⟨2, ![n, 128]⟩ : Shape).Idx → EReal) (Wo : (⟨2, ![128, 64]⟩ : Shape).Idx → EReal)
    (bo : (⟨2, ![1, 64]⟩ : Shape).Idx → EReal) : (⟨2, ![n, 64]⟩ : Shape).Idx → EReal := fun i =>
  logitRow (rowOf E ⟨(i 0).val, (i 0).isLt⟩) (matOf Wo) (vecOf bo) ⟨(i 1).val, (i 1).isLt⟩

theorem convArr_ix2 {n : Nat} (H A : (⟨2, ![n, 128]⟩ : Shape).Idx → EReal) (I : (⟨2, ![n, 1]⟩ : Shape).Idx → EReal)
    (Ws Wn : (⟨2, ![128, 128]⟩ : Shape).Idx → EReal) (b : (⟨2, ![1, 128]⟩ : Shape).Idx → EReal) (p : Fin n) (q : Fin 128) :
    convArr H A I Ws Wn b (ix2 p q)
      = convRow (rowOf H p) (rowOf A p) (I (ix2 p (0 : Fin 1))) (matOf Ws) (matOf Wn) (vecOf b) q := rfl

theorem midArr_ix2 {n : Nat} (H A : (⟨2, ![n, 128]⟩ : Shape).Idx → EReal) (I : (⟨2, ![n, 1]⟩ : Shape).Idx → EReal)
    (Ws Wn : (⟨2, ![128, 128]⟩ : Shape).Idx → EReal) (b g be : (⟨2, ![1, 128]⟩ : Shape).Idx → EReal) (p : Fin n) (q : Fin 128) :
    midArr H A I Ws Wn b g be (ix2 p q)
      = midRow (rowOf H p) (rowOf A p) (I (ix2 p (0 : Fin 1))) (matOf Ws) (matOf Wn) (vecOf b) (vecOf g) (vecOf be) q := rfl

theorem logitArr_ix2 {n : Nat} (E : (⟨2, ![n, 128]⟩ : Shape).Idx → EReal) (Wo : (⟨2, ![128, 64]⟩ : Shape).Idx → EReal)
    (bo : (⟨2, ![1, 64]⟩ : Shape).Idx → EReal) (p : Fin n) (q : Fin 64) :
    logitArr E Wo bo (ix2 p q) = logitRow (rowOf E p) (matOf Wo) (vecOf bo) q := rfl

end Cert.Sage

end
-- ==== Proof.LibKeepdims.lean ====
/-
  Two layout facts about a column kept after a row reduction (a sum or a maximum taken along the last axis with the axis
  kept as a unit axis): the vector of row results cast to a column, and that column broadcast back over the row.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KPay.lean ====
/-
  The three kernels' arithmetic, read at one element, is the layer's row mathematics.

  Each kernel's body computes, on a block of 5000 rows: the convolution `h·Ws + (a ⊙ iv)·Wn + b + h` (two matrix products into
  zero accumulators, the reciprocal-degree column broadcast along the row, the bias row broadcast down the rows, the residual);
  a middle kernel then rectifies, takes the row's mean and variance by lane sums divided by the row length, and normalizes;
  the last kernel also multiplies the embedding block by the output matrix and adds the output bias row.
  At an element `(p, q)` of the block each of these depends on row `p` of the loaded blocks only.
-/
import proofs.«107849_j42949672960221_2_alg».proof.Proof.Gen.KernelIdeal.Skeleton
import proofs.«107849_j42949672960221_2_alg».proof.Proof.Spec
import proofs.«107849_j42949672960221_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPay

open Cert.KernelIdeal Cert.KernelIdeal.Gen Cert.Sage Cert.LibKeepdims
open Idealize.ShloMosaic Idealize.ShloMosaic.ValueIdx

/-- The dimension numbers of the two hidden-width products: rows × contraction times contraction × columns. -/
abbrev DH := dot_S5000x128_S128x128_S5000x128_1_0_0_1_n_n
/-- The dimension numbers of the output projection. -/
abbrev DO := dot_S5000x128_S128x64_S5000x64_1_0_0_1_n_n

/-! ## A lane sum and the two products at an element -/

/-- The sum along a row of a block, at row `p`. -/
theorem laneSum_apply (x : FVec Ideal S5000x128 .f32) (p : Fin 5000) :
    multiReduction .add [1] S5000 x 0x00000000#32 reduces_S5000x128_S5000 (.inl rfl) rfl (ix1 p) = ∑ k : Fin 128, x (ix2 p k) := by
  refine (Ideal.multiReduction_add_single x 0x00000000#32 reduces_S5000x128_S5000 (.inl rfl) rfl (ix1 p)).trans ?_
  exact Finset.sum_congr rfl fun k _ => congrArg x (funext fun a => Fin.ext (by
    match a with
    | ⟨0, _⟩ => rfl
    | ⟨1, _⟩ => rfl))

theorem lhsH_0 (i : S5000x128.Idx) (c : DH.contr.Idx) : (DH.lhsIdx i c 0).val = (i 0).val := by
  unfold DotDims.lhsIdx
  rw [dif_neg (show ¬(0 : Fin S5000x128.rank) ∈ DH.lhsBatch by decide), dif_pos (show (0 : Fin S5000x128.rank) ∈ DH.lhsNonContracting by decide)]
  rfl
theorem rhsH_1 (i : S5000x128.Idx) (c : DH.contr.Idx) : (DH.rhsIdx i c 1).val = (i 1).val := by
  unfold DotDims.rhsIdx
  rw [dif_neg (show ¬(1 : Fin S128x128.rank) ∈ DH.rhsBatch by decide), dif_pos (show (1 : Fin S128x128.rank) ∈ DH.rhsNonContracting by decide)]
  rfl

/-- A block times a square matrix into the zero accumulator, at `(p, q)`: row `p` against column `q`. -/
theorem matmulH_apply (l : FVec Ideal S5000x128 .f32) (r : FVec Ideal S128x128 .f32) (p : Fin 5000) (q : Fin 128) :
    matmul DH none l r (constant (F := Ideal) S5000x128 .f32 0x00000000#32) (ix2 p q) = ∑ k : Fin 128, l (ix2 p k) * r (ix2 k q) := by
  refine (Ideal.matmul_constant_zero_apply DH none l r (ix2 p q)).trans ?_
  rw [← Equiv.sum_comp (ValueIdx.contrEquiv1 DH 128 rfl rfl).symm]
  refine Finset.sum_congr rfl fun k _ => ?_
  have hk := ValueIdx.contrEquiv1_symm_val DH 128 rfl rfl k
  have el : DH.lhsIdx (ix2 p q) ((ValueIdx.contrEquiv1 DH 128 rfl rfl).symm k) = ix2 p k := funext fun a => Fin.ext (by
    match a with
    | ⟨0, _⟩ => exact lhsH_0 _ _
    | ⟨1, _⟩ => exact (DH.lhsIdx_val_of_single rfl _ _).trans hk)
  have er : DH.rhsIdx (ix2 p q) ((ValueIdx.contrEquiv1 DH 128 rfl rfl).symm k) = ix2 k q := funext fun a => Fin.ext (by
    match a with
    | ⟨0, _⟩ => exact (DH.rhsIdx_val_of_single rfl _ _).trans hk
    | ⟨1, _⟩ => exact rhsH_1 _ _)
  rw [el, er]

theorem lhsO_0 (i : S5000x64.Idx) (c : DO.contr.Idx) : (DO.lhsIdx i c 0).val = (i 0).val := by
  unfold DotDims.lhsIdx
  rw [dif_neg (show ¬(0 : Fin S5000x128.rank) ∈ DO.lhsBatch by decide), dif_pos (show (0 : Fin S5000x128.rank) ∈ DO.lhsNonContracting by decide)]
  rfl
theorem rhsO_1 (i : S5000x64.Idx) (c : DO.contr.Idx) : (DO.rhsIdx i c 1).val = (i 1).val := by
  unfold DotDims.rhsIdx
  rw [dif_neg (show ¬(1 : Fin S128x64.rank) ∈ DO.rhsBatch by decide), dif_pos (show (1 : Fin S128x64.rank) ∈ DO.rhsNonContracting by decide)]
  rfl

/-- A block times the output matrix into the zero accumulator, at `(p, q)`. -/
theorem matmulO_apply (l : FVec Ideal S5000x128 .f32) (r : FVec Ideal S128x64 .f32) (p : Fin 5000) (q : Fin 64) :
    matmul DO none l r (constant (F := Ideal) S5000x64 .f32 0x00000000#32) (ix2 p q) = ∑ k : Fin 128, l (ix2 p k) * r (ix2 k q) := by
  refine (Ideal.matmul_constant_zero_apply DO none l r (ix2 p q)).trans ?_
  rw [← Equiv.sum_comp (ValueIdx.contrEquiv1 DO 128 rfl rfl).symm]
  refine Finset.sum_congr rfl fun k _ => ?_
  have hk := ValueIdx.contrEquiv1_symm_val DO 128 rfl rfl k
  have el : DO.lhsIdx (ix2 p q) ((ValueIdx.contrEquiv1 DO 128 rfl rfl).symm k) = ix2 p k := funext fun a => Fin.ext (by
    match a with
    | ⟨0, _⟩ => exact lhsO_0 _ _
    | ⟨1, _⟩ => exact (DO.lhsIdx_val_of_single rfl _ _).trans hk)
  have er : DO.rhsIdx (ix2 p q) ((ValueIdx.contrEquiv1 DO 128 rfl rfl).symm k) = ix2 k q := funext fun a => Fin.ext (by
    match a with
    | ⟨0, _⟩ => exact (DO.rhsIdx_val_of_single rfl _ _).trans hk
    | ⟨1, _⟩ => exact rhsO_1 _ _)
  rw [el, er]

/-! ## The convolution of a block -/

/-- The block's convolution as the kernels spell it. -/
def convBlk (h a : FVec Ideal S5000x128 .f32) (iv : FVec Ideal S5000x1 .f32) (ws wn : FVec Ideal S128x128 .f32)
    (b : FVec Ideal S1x128 .f32) : FVec Ideal S5000x128 .f32 :=
  addf (addf (addf (matmul DH none h ws (constant (F := Ideal) S5000x128 .f32 0x00000000#32))
      (matmul DH none (mulf a (broadcastTo S5000x128 iv broadcasts_S5000x1_S5000x128)) wn (constant (F := Ideal) S5000x128 .f32 0x00000000#32)))
    (broadcastTo S5000x128 b broadcasts_S1x128_S5000x128)) h

/-- At `(p, q)` it is the convolution's row `p` at feature `q`. -/
theorem convBlk_apply (h a : FVec Ideal S5000x128 .f32) (iv : FVec Ideal S5000x1 .f32) (ws wn : FVec Ideal S128x128 .f32)
    (b : FVec Ideal S1x128 .f32) (p : Fin 5000) (q : Fin 128) :
    convBlk h a iv ws wn b (ix2 p q)
      = convRow (rowOf h p) (rowOf a p) (iv (ix2 p (0 : Fin 1))) (matOf ws) (matOf wn) (vecOf b) q := by
  unfold convBlk
  rw [addf_apply, addf_apply, addf_apply, matmulH_apply, matmulH_apply, broadcastTo_1b_ab_apply]
  unfold convRow rowOf matOf vecOf
  simp only [mulf_apply, broadcastTo_a1_ab_apply]

/-- The rectified block. -/
def reluBlk (y : FVec Ideal S5000x128 .f32) : FVec Ideal S5000x128 .f32 :=
  maximumf y (broadcast S5000x128 (Scalar.ofBits (F := Ideal) .f32 0x00000000#32))

theorem reluBlk_apply (y : FVec Ideal S5000x128 .f32) (p : Fin 5000) (q : Fin 128) :
    reluBlk y (ix2 p q) = reluRow (rowOf y p) q := rfl

/-- A block's row means, as a column. -/
def meanBlk (r : FVec Ideal S5000x128 .f32) : FVec Ideal S5000x1 .f32 :=
  divf (shapeCast S5000x1 (multiReduction .add [1] S5000 r 0x00000000#32 reduces_S5000x128_S5000 (.inl rfl) rfl) shapeCasts_S5000_S5000x1)
    (broadcast S5000x1 (Scalar.ofBits (F := Ideal) .f32 0x43000000#32))

theorem meanBlk_apply (r : FVec Ideal S5000x128 .f32) (p : Fin 5000) :
    meanBlk r (ix2 p (0 : Fin 1)) = meanRow (rowOf r p) := by
  unfold meanBlk
  rw [divf_apply, shapeCast_a_a1_apply, laneSum_apply]
  rfl

/-- The block less its row means. -/
def devBlk (r : FVec Ideal S5000x128 .f32) : FVec Ideal S5000x128 .f32 :=
  subf r (broadcastTo S5000x128 (meanBlk r) broadcasts_S5000x1_S5000x128)

theorem devBlk_apply (r : FVec Ideal S5000x128 .f32) (p : Fin 5000) (q : Fin 128) :
    devBlk r (ix2 p q) = rowOf r p q - meanRow (rowOf r p) := by
  unfold devBlk
  rw [subf_apply, broadcastTo_a1_ab_apply, meanBlk_apply]
  rfl

/-- A block's row variances, as a column. -/
def varBlk (r : FVec Ideal S5000x128 .f32) : FVec Ideal S5000x1 .f32 :=
  meanBlk (mulf (devBlk r) (devBlk r))

theorem varBlk_apply (r : FVec Ideal S5000x128 .f32) (p : Fin 5000) :
    varBlk r (ix2 p (0 : Fin 1)) = meanRow (sqDev (rowOf r p) (meanRow (rowOf r p))) := by
  unfold varBlk
  rw [meanBlk_apply]
  refine congrArg meanRow (funext fun k => ?_)
  show mulf (devBlk r) (devBlk r) (ix2 p k) = _
  rw [mulf_apply, devBlk_apply]
  rfl

/-- The reciprocal standard deviation broadcast over the block. -/
def rstdBlk (v : FVec Ideal S5000x1 .f32) : FVec Ideal S5000x128 .f32 :=
  broadcastTo S5000x128 (rsqrt (addf v (broadcast S5000x1 (Scalar.ofBits (F := Ideal) .f32 0x3727C5AC#32)))) broadcasts_S5000x1_S5000x128

theorem rstdBlk_apply (v : FVec Ideal S5000x1 .f32) (p : Fin 5000) (q : Fin 128) :
    rstdBlk v (ix2 p q) = Ideal.rsqrt (v (ix2 p (0 : Fin 1)) + epsW) := by
  unfold rstdBlk
  rw [broadcastTo_a1_ab_apply]
  rfl

/-! ## A middle layer and the class scores on a block -/

/-- The rectified convolution's row `p`. -/
theorem rowOf_relu_conv (h a : FVec Ideal S5000x128 .f32) (iv : FVec Ideal S5000x1 .f32) (ws wn : FVec Ideal S128x128 .f32)
    (b : FVec Ideal S1x128 .f32) (p : Fin 5000) :
    rowOf (reluBlk (convBlk h a iv ws wn b)) p
      = reluRow (convRow (rowOf h p) (rowOf a p) (iv (ix2 p (0 : Fin 1))) (matOf ws) (matOf wn) (vecOf b)) := by
  funext k
  show max (convBlk h a iv ws wn b (ix2 p k)) zeroW = _
  rw [convBlk_apply]
  rfl

/-- The convolution's row `p`. -/
theorem rowOf_conv (h a : FVec Ideal S5000x128 .f32) (iv : FVec Ideal S5000x1 .f32) (ws wn : FVec Ideal S128x128 .f32)
    (b : FVec Ideal S1x128 .f32) (p : Fin 5000) :
    rowOf (convBlk h a iv ws wn b) p
      = convRow (rowOf h p) (rowOf a p) (iv (ix2 p (0 : Fin 1))) (matOf ws) (matOf wn) (vecOf b) :=
  funext fun k => convBlk_apply h a iv ws wn b p k

/-- A middle layer on a block: scale times deviation, times the reciprocal standard deviation, plus shift. -/
def midBlk (h a : FVec Ideal S5000x128 .f32) (iv : FVec Ideal S5000x1 .f32) (ws wn : FVec Ideal S128x128 .f32)
    (b g be : FVec Ideal S1x128 .f32) : FVec Ideal S5000x128 .f32 :=
  addf (mulf (mulf (broadcastTo S5000x128 g broadcasts_S1x128_S5000x128) (devBlk (reluBlk (convBlk h a iv ws wn b))))
      (rstdBlk (varBlk (reluBlk (convBlk h a iv ws wn b))))) (broadcastTo S5000x128 be broadcasts_S1x128_S5000x128)

theorem midBlk_apply (h a : FVec Ideal S5000x128 .f32) (iv : FVec Ideal S5000x1 .f32) (ws wn : FVec Ideal S128x128 .f32)
    (b g be : FVec Ideal S1x128 .f32) (p : Fin 5000) (q : Fin 128) :
    midBlk h a iv ws wn b g be (ix2 p q)
      = midRow (rowOf h p) (rowOf a p) (iv (ix2 p (0 : Fin 1))) (matOf ws) (matOf wn) (vecOf b) (vecOf g) (vecOf be) q := by
  unfold midBlk
  rw [addf_apply, mulf_apply, mulf_apply, broadcastTo_1b_ab_apply, broadcastTo_1b_ab_apply, devBlk_apply, rstdBlk_apply,
    varBlk_apply, rowOf_relu_conv]
  rfl

/-- The class scores of a block of embeddings. -/
def logitBlk (e : FVec Ideal S5000x128 .f32) (wo : FVec Ideal S128x64 .f32) (bo : FVec Ideal S1x64 .f32) : FVec Ideal S5000x64 .f32 :=
  addf (matmul DO none e wo (constant (F := Ideal) S5000x64 .f32 0x00000000#32)) (broadcastTo S5000x64 bo broadcasts_S1x64_S5000x64)

theorem logitBlk_apply (e : FVec Ideal S5000x128 .f32) (wo : FVec Ideal S128x64 .f32) (bo : FVec Ideal S1x64 .f32)
    (p : Fin 5000) (q : Fin 64) :
    logitBlk e wo bo (ix2 p q) = logitRow (rowOf e p) (matOf wo) (vecOf bo) q := by
  unfold logitBlk
  rw [addf_apply, matmulO_apply, broadcastTo_1b_ab_apply]
  rfl

/-! ## The kernels' payloads are these blocks -/

/-- The first middle kernel's stored value. -/
theorem k0_stored (x0 x1 : Vec Ideal S5000x128 .f32) (x2 : Vec Ideal S5000x1 .f32) (x3 x4 : Vec Ideal S128x128 .f32)
    (x5 x6 x7 : Vec Ideal S1x128 .f32) :
    k0_pay1 (k0_pay4 x0 x1 x2 x3 x4 x5) (k0_pay5 x0 x1 x2 x3 x4 x5 x6) x7 = midBlk x0 x1 x2 x3 x4 x5 x6 x7 := by
  unfold k0_pay1 k0_pay4 k0_pay5 k0_pay3 k0_pay2 midBlk rstdBlk varBlk devBlk meanBlk reluBlk convBlk
  simp only [shapeCast_self]

/-- The second middle kernel's stored value. -/
theorem k1_stored (x0 x1 : Vec Ideal S5000x128 .f32) (x2 : Vec Ideal S5000x1 .f32) (x3 x4 : Vec Ideal S128x128 .f32)
    (x5 x6 x7 : Vec Ideal S1x128 .f32) :
    k1_pay1 (k1_pay4 x0 x1 x2 x3 x4 x5) (k1_pay5 x0 x1 x2 x3 x4 x5) (k1_pay6 x6) x7 = midBlk x0 x1 x2 x3 x4 x5 x6 x7 := by
  unfold k1_pay1 k1_pay4 k1_pay5 k1_pay6 k1_pay3 k1_pay2 midBlk rstdBlk varBlk devBlk meanBlk reluBlk convBlk
  simp only [shapeCast_self]

/-- The last kernel's stored embedding. -/
theorem k2_emb (x0 x1 : Vec Ideal S5000x128 .f32) (x2 : Vec Ideal S5000x1 .f32) (x3 x4 : Vec Ideal S128x128 .f32)
    (x5 : Vec Ideal S1x128 .f32) :
    k2_pay1 x0 x1 x2 x3 x4 x5 = convBlk x0 x1 x2 x3 x4 x5 := by
  unfold k2_pay1 convBlk
  simp only [shapeCast_self]

/-- The last kernel's stored class scores. -/
theorem k2_scores (x0 x1 : Vec Ideal S5000x128 .f32) (x2 : Vec Ideal S5000x1 .f32) (x3 x4 : Vec Ideal S128x128 .f32)
    (x5 : Vec Ideal S1x128 .f32) (x6 : Vec Ideal S128x64 .f32) (x7 : Vec Ideal S1x64 .f32) :
    k2_pay2 x0 x1 x2 x3 x4 x5 x6 x7 = logitBlk (convBlk x0 x1 x2 x3 x4 x5) x6 x7 := by
  unfold k2_pay2 logitBlk
  rw [k2_emb]
  simp only [shapeCast_self]

end Cert.KernelIdeal.KPay

end
-- ==== Proof.KVal0.lean ====
/-
  Region 0 (a middle layer's grid): the array its output window leaves.

  The grid has ten points; point `t` is handed rows `5000·t … 5000·t + 4999` of the features, of the neighbour sums and of the
  reciprocal-degree column, and the whole of the two weight matrices and of the bias, scale and shift rows; it writes back the
  same rows of the output.  What it writes is the middle layer's rows of exactly those rows, so the blocks are the restrictions
  of one whole-array function, `midArr` of the arrays as the region finds them, and the ten blocks cover the array.
-/
import proofs.«107849_j42949672960221_2_alg».proof.Proof.Gen.KernelIdeal.Frame
import proofs.«107849_j42949672960221_2_alg».proof.Proof.KPay

set_option maxRecDepth 16384

noncomputable section

namespace Cert.KernelIdeal.KVal0

open Cert.KernelIdeal Cert.KernelIdeal.Gen Cert.KernelIdeal.KPay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored block at an element: the middle layer's row of the loaded blocks' row. -/
theorem out_apply (x0 x1 : Vec Ideal S5000x128 .f32) (x2 : Vec Ideal S5000x1 .f32) (x3 x4 : Vec Ideal S128x128 .f32)
    (x5 x6 x7 : Vec Ideal S1x128 .f32) (p : Fin 5000) (q : Fin 128) :
    out0_8 x0 x1 x2 x3 x4 x5 x6 x7 (ix2 p q)
      = midRow (rowOf x0 p) (rowOf x1 p) (x2 (ix2 p (0 : Fin 1))) (matOf x3) (matOf x4) (vecOf x5) (vecOf x6) (vecOf x7) q := by
  unfold out0_8
  rw [View.canon_unit_zero hz]
  simp only [View.ld_unit_zero (S := S5000x128) hz, View.ld_unit_zero (S := S5000x1) hz, View.ld_unit_zero (S := S128x128) hz,
    View.ld_unit_zero (S := S1x128) hz]
  rw [k0_stored, midBlk_apply]

/-- The printed index maps over the grid: the three row windows and the output move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 10 := by
  have h : t.val < cfg0.N := t.isLt
  have hN : cfg0.N = 10 := N_0
  omega

/-- Row `p` of point `t`'s block is row `5000·t + p` of the array. -/
def rowAt (t : Fin cfg0.N) (p : Fin 5000) : Fin 50000 := ⟨t.val * 5000 + p.val, by have := t_lt t; have := p.isLt; omega⟩

/-! ## The windows' blocks read at an element -/

theorem blk_0 (c : Dev nD) (t : Fin cfg0.N) (p : Fin 5000) (k : Fin 128) :
    iblk0 V c 0 t (ix2 p k) = (V c main_arg0 : S50000x128.Idx → EReal) (ix2 (rowAt t p) k) := by
  obtain ⟨e, e', -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk_1 (c : Dev nD) (t : Fin cfg0.N) (p : Fin 5000) (k : Fin 128) :
    iblk0 V c 1 t (ix2 p k) = (V c main_v18 : S50000x128.Idx → EReal) (ix2 (rowAt t p) k) := by
  obtain ⟨-, -, e, e', -⟩ := idx_facts t
  show V c main_v18 (((cfg0.win 1).blk t).view.emb (ix2 p k)) = _
  refine congrArg (V c main_v18) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem blk_2 (c : Dev nD) (t : Fin cfg0.N) (p : Fin 5000) :
    iblk0 V c 2 t (ix2 p (0 : Fin 1)) = (V c main_v8 : S50000x1.Idx → EReal) (ix2 (rowAt t p) (0 : Fin 1)) := by
  obtain ⟨-, -, -, -, e, e', -⟩ := idx_facts t
  show V c main_v8 (((cfg0.win 2).blk t).view.emb (ix2 p (0 : Fin 1))) = _
  refine congrArg (V c main_v8) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

theorem blk_3 (c : Dev nD) (t : Fin cfg0.N) (k q : Fin 128) :
    iblk0 V c 3 t (ix2 k q) = (V c main_v20 : S128x128.Idx → EReal) (ix2 k q) := by
  obtain ⟨-, -, -, -, -, -, e, e', -⟩ := idx_facts t
  show V c main_v20 (((cfg0.win 3).blk t).view.emb (ix2 k q)) = _
  refine congrArg (V c main_v20) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem blk_4 (c : Dev nD) (t : Fin cfg0.N) (k q : Fin 128) :
    iblk0 V c 4 t (ix2 k q) = (V c main_v22 : S128x128.Idx → EReal) (ix2 k q) := by
  obtain ⟨-, -, -, -, -, -, -, -, e, e', -⟩ := idx_facts t
  show V c main_v22 (((cfg0.win 4).blk t).view.emb (ix2 k q)) = _
  refine congrArg (V c main_v22) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem blk_5 (c : Dev nD) (t : Fin cfg0.N) (q : Fin 128) :
    iblk0 V c 5 t (ix2 (0 : Fin 1) q) = (V c main_v25 : S1x128.Idx → EReal) (ix2 (0 : Fin 1) q) := by
  obtain ⟨-, -, -, -, -, -, -, -, -, -, e, e', -⟩ := idx_facts t
  show V c main_v25 (((cfg0.win 5).blk t).view.emb (ix2 (0 : Fin 1) q)) = _
  refine congrArg (V c main_v25) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

theorem blk_6 (c : Dev nD) (t : Fin cfg0.N) (q : Fin 128) :
    iblk0 V c 6 t (ix2 (0 : Fin 1) q) = (V c main_v28 : S1x128.Idx → EReal) (ix2 (0 : Fin 1) q) := by
  obtain ⟨-, -, -, -, -, -, -, -, -, -, -, -, e, e', -⟩ := idx_facts t
  show V c main_v28 (((cfg0.win 6).blk t).view.emb (ix2 (0 : Fin 1) q)) = _
  refine congrArg (V c main_v28) (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

theorem blk_7 (c : Dev nD) (t : Fin cfg0.N) (q : Fin 128) :
    iblk0 V c 7 t (ix2 (0 : Fin 1) q) = (V c main_v31 : S1x128.Idx → EReal) (ix2 (0 : Fin 1) q) := by
  obtain ⟨-, -, -, -, -, -, -, -, -, -, -, -, -, -, e, e', -⟩ := idx_facts t
  show V c main_v31 (((cfg0.win 7).blk t).view.emb (ix2 (0 : Fin 1) q)) = _
  refine congrArg (V c main_v31) (funext fun a => Fin.ext ?_)
  match a with
  | ⟨0, _⟩ => show win0_7.index t (0 : Fin 2) * 1 + 1 * 0 = 0; omega
  | ⟨1, _⟩ => show win0_7.index t (1 : Fin 2) * 128 + 1 * q.val = q.val; omega

/-! ## The output array -/

/-- The middle layer of the arrays the region finds. -/
def G (c : Dev nD) : S50000x128.Idx → EReal :=
  midArr (V c main_arg0) (V c main_v18) (V c main_v8) (V c main_v20) (V c main_v22) (V c main_v25) (V c main_v28) (V c main_v31)

/-- What point `t` writes back is block `t` of `G`. -/
theorem flushed_eq (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  funext j
  obtain ⟨p, q, rfl⟩ : ∃ (p : Fin 5000) (q : Fin 128), j = ix2 p q := ⟨j 0, j 1, eq_ix2 j⟩
  obtain ⟨-, -, -, -, -, -, -, -, -, -, -, -, -, -, -, -, e, e'⟩ := idx_facts t
  show out0_8 (iblk0 V c 0 t) (iblk0 V c 1 t) (iblk0 V c 2 t) (iblk0 V c 3 t) (iblk0 V c 4 t) (iblk0 V c 5 t) (iblk0 V c 6 t) (iblk0 V c 7 t) (ix2 p q)
    = G V c (((cfg0.win 8).blk t).view.emb (ix2 p q))
  have hemb : ((cfg0.win 8).blk t).view.emb (ix2 p q) = (ix2 (rowAt t p) q : S50000x128.Idx) := funext fun a => Fin.ext (by
    match a with
    | ⟨0, _⟩ => show win0_8.index t (0 : Fin 2) * 5000 + 1 * p.val = t.val * 5000 + p.val; omega
    | ⟨1, _⟩ => show win0_8.index t (1 : Fin 2) * 128 + 1 * q.val = q.val; omega)
  rw [hemb]
  refine (out_apply _ _ _ _ _ _ _ _ p q).trans ?_
  show _ = midRow (rowOf (V c main_arg0) (rowAt t p)) (rowOf (V c main_v18) (rowAt t p)) ((V c main_v8 : S50000x1.Idx → EReal) (ix2 (rowAt t p) (0 : Fin 1)))
    (matOf (V c main_v20)) (matOf (V c main_v22)) (vecOf (V c main_v25)) (vecOf (V c main_v28)) (vecOf (V c main_v31)) q
  have h0 : rowOf (iblk0 V c 0 t) p = rowOf (V c main_arg0) (rowAt t p) := funext fun k => blk_0 V c t p k
  have h1 : rowOf (iblk0 V c 1 t) p = rowOf (V c main_v18) (rowAt t p) := funext fun k => blk_1 V c t p k
  have h3 : matOf (iblk0 V c 3 t) = matOf (V c main_v20) := funext fun k => funext fun q' => blk_3 V c t k q'
  have h4 : matOf (iblk0 V c 4 t) = matOf (V c main_v22) := funext fun k => funext fun q' => blk_4 V c t k q'
  have h5 : vecOf (iblk0 V c 5 t) = vecOf (V c main_v25) := funext fun q' => blk_5 V c t q'
  have h6 : vecOf (iblk0 V c 6 t) = vecOf (V c main_v28) := funext fun q' => blk_6 V c t q'
  have h7 : vecOf (iblk0 V c 7 t) = vecOf (V c main_v31) := funext fun q' => blk_7 V c t q'
  rw [h0, h1, h3, h4, h5, h6, h7, blk_2 V c t p]

/-- An index of the array is in point `t`'s output block iff each coordinate is in the block's range on its axis. -/
theorem mem_blk (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v32).slice (win0_8.rect t)).set ↔ _
  rw [View.set_slice_whole, Rect.mem_set_unit]
  exact Iff.rfl

/-- Every row is in the block of the point its number divided by 5000 names. -/
theorem cover (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_8 _, ?_⟩
  rw [mem_blk]
  obtain ⟨-, -, -, -, -, -, -, -, -, -, -, -, -, -, -, -, e, e'⟩ := idx_facts ⟨(i 0).val / 5000, by rw [hN]; omega⟩
  intro a
  match a with
  | ⟨0, _⟩ =>
    show win0_8.index ⟨(i 0).val / 5000, _⟩ (0 : Fin 2) * 5000 ≤ (i 0).val ∧ (i 0).val < win0_8.index ⟨(i 0).val / 5000, _⟩ (0 : Fin 2) * 5000 + 5000
    rw [e]; show (i 0).val / 5000 * 5000 ≤ (i 0).val ∧ (i 0).val < (i 0).val / 5000 * 5000 + 5000; omega
  | ⟨1, _⟩ =>
    show win0_8.index ⟨(i 0).val / 5000, _⟩ (1 : Fin 2) * 128 ≤ (i 1).val ∧ (i 1).val < win0_8.index ⟨(i 0).val / 5000, _⟩ (1 : Fin 2) * 128 + 128
    rw [e']; omega

/-- The output array after the region: the middle layer of the arrays it found. -/
theorem final (c : Dev nD) : (dat0 V c).arrAt 8 cfg0.N = G V c :=
  (dat0 V c).arrAt_eq_of_cover 8 (G V c) (fun t _ => flushed_eq V c t) (cover)

end Cert.KernelIdeal.KVal0

end
-- ==== Proof.KVal1.lean ====
/-
  Region 1 (a middle layer's grid): the array its output window leaves.

  The grid has ten points; point `t` is handed rows `5000·t … 5000·t + 4999` of the features, of the neighbour sums and of the
  reciprocal-degree column, and the whole of the two weight matrices and of the bias, scale and shift rows; it writes back the
  same rows of the output.  What it writes is the middle layer's rows of exactly those rows, so the blocks are the restrictions
  of one whole-array function, `midArr` of the arrays as the region finds them, and the ten blocks cover the array.
-/
import proofs.«107849_j42949672960221_2_alg».proof.Proof.Gen.KernelIdeal.Frame
import proofs.«107849_j42949672960221_2_alg».proof.Proof.KPay

set_option maxRecDepth 16384

noncomputable section

namespace Cert.KernelIdeal.KVal1

open Cert.KernelIdeal Cert.KernelIdeal.Gen Cert.KernelIdeal.KPay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored block at an element: the middle layer's row of the loaded blocks' row. -/
theorem out_apply (x0 x1 : Vec Ideal S5000x128 .f32) (x2 : Vec Ideal S5000x1 .f32) (x3 x4 : Vec Ideal S128x128 .f32)
    (x5 x6 x7 : Vec Ideal S1x128 .f32) (p : Fin 5000) (q : Fin 128) :
    out1_8 x0 x1 x2 x3 x4 x5 x6 x7 (ix2 p q)
      = midRow (rowOf x0 p) (rowOf x1 p) (x2 (ix2 p (0 : Fin 1))) (matOf x3) (matOf x4) (vecOf x5) (vecOf x6) (vecOf x7) q := by
  unfold out1_8
  rw [View.canon_unit_zero hz]
  simp only [View.ld_unit_zero (S := S5000x128) hz, View.ld_unit_zero (S := S5000x1) hz, View.ld_unit_zero (S := S128x128) hz,
    View.ld_unit_zero (S := S1x128) hz]
  rw [k1_stored, midBlk_apply]

/-- The printed index maps over the grid: the three row windows and the output move with the point, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem t_lt (t : Fin cfg1.N) : t.val < 10 := by
  have h : t.val < cfg1.N := t.isLt
  have hN : cfg1.N = 10 := N_1
  omega

/-- Row `p` of point `t`'s block is row `5000·t + p` of the array. -/
def rowAt (t : Fin cfg1.N) (p : Fin 5000) : Fin 50000 := ⟨t.val * 5000 + p.val, by have := t_lt t; have := p.isLt; omega⟩

/-! ## The windows' blocks read at an element -/

theorem blk_0 (c : Dev nD) (t : Fin cfg1.N) (p : Fin 5000) (k : Fin 128) :
    iblk1 V c 0 t (ix2 p k) = (V c main_v32 : S50000x128.Idx → EReal) (ix2 (rowAt t p) k) := by
  obtain ⟨e, e', -⟩ := idx_facts t
  show V c main_v32 (((cfg1.win 0).blk t).view.emb (ix2 p k)) = _
  refine congrArg (V c main_v32) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem blk_1 (c : Dev nD) (t : Fin cfg1.N) (p : Fin 5000) (k : Fin 128) :
    iblk1 V c 1 t (ix2 p k) = (V c main_v42 : S50000x128.Idx → EReal) (ix2 (rowAt t p) k) := by
  obtain ⟨-, -, e, e', -⟩ := idx_facts t
  show V c main_v42 (((cfg1.win 1).blk t).view.emb (ix2 p k)) = _
  refine congrArg (V c main_v42) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem blk_2 (c : Dev nD) (t : Fin cfg1.N) (p : Fin 5000) :
    iblk1 V c 2 t (ix2 p (0 : Fin 1)) = (V c main_v8 : S50000x1.Idx → EReal) (ix2 (rowAt t p) (0 : Fin 1)) := by
  obtain ⟨-, -, -, -, e, e', -⟩ := idx_facts t
  show V c main_v8 (((cfg1.win 2).blk t).view.emb (ix2 p (0 : Fin 1))) = _
  refine congrArg (V c main_v8) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

theorem blk_3 (c : Dev nD) (t : Fin cfg1.N) (k q : Fin 128) :
    iblk1 V c 3 t (ix2 k q) = (V c main_v44 : S128x128.Idx → EReal) (ix2 k q) := by
  obtain ⟨-, -, -, -, -, -, e, e', -⟩ := idx_facts t
  show V c main_v44 (((cfg1.win 3).blk t).view.emb (ix2 k q)) = _
  refine congrArg (V c main_v44) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem blk_4 (c : Dev nD) (t : Fin cfg1.N) (k q : Fin 128) :
    iblk1 V c 4 t (ix2 k q) = (V c main_v46 : S128x128.Idx → EReal) (ix2 k q) := by
  obtain ⟨-, -, -, -, -, -, -, -, e, e', -⟩ := idx_facts t
  show V c main_v46 (((cfg1.win 4).blk t).view.emb (ix2 k q)) = _
  refine congrArg (V c main_v46) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem blk_5 (c : Dev nD) (t : Fin cfg1.N) (q : Fin 128) :
    iblk1 V c 5 t (ix2 (0 : Fin 1) q) = (V c main_v49 : S1x128.Idx → EReal) (ix2 (0 : Fin 1) q) := by
  obtain ⟨-, -, -, -, -, -, -, -, -, -, e, e', -⟩ := idx_facts t
  show V c main_v49 (((cfg1.win 5).blk t).view.emb (ix2 (0 : Fin 1) q)) = _
  refine congrArg (V c main_v49) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

theorem blk_6 (c : Dev nD) (t : Fin cfg1.N) (q : Fin 128) :
    iblk1 V c 6 t (ix2 (0 : Fin 1) q) = (V c main_v52 : S1x128.Idx → EReal) (ix2 (0 : Fin 1) q) := by
  obtain ⟨-, -, -, -, -, -, -, -, -, -, -, -, e, e', -⟩ := idx_facts t
  show V c main_v52 (((cfg1.win 6).blk t).view.emb (ix2 (0 : Fin 1) q)) = _
  refine congrArg (V c main_v52) (funext fun a => Fin.ext ?_)
  match a with
  | ⟨0, _⟩ => show win1_6.index t (0 : Fin 2) * 1 + 1 * 0 = 0; omega
  | ⟨1, _⟩ => show win1_6.index t (1 : Fin 2) * 128 + 1 * q.val = q.val; omega

theorem blk_7 (c : Dev nD) (t : Fin cfg1.N) (q : Fin 128) :
    iblk1 V c 7 t (ix2 (0 : Fin 1) q) = (V c main_v55 : S1x128.Idx → EReal) (ix2 (0 : Fin 1) q) := by
  obtain ⟨-, -, -, -, -, -, -, -, -, -, -, -, -, -, e, e', -⟩ := idx_facts t
  show V c main_v55 (((cfg1.win 7).blk t).view.emb (ix2 (0 : Fin 1) q)) = _
  refine congrArg (V c main_v55) (funext fun a => Fin.ext ?_)
  match a with
  | ⟨0, _⟩ => show win1_7.index t (0 : Fin 2) * 1 + 1 * 0 = 0; omega
  | ⟨1, _⟩ => show win1_7.index t (1 : Fin 2) * 128 + 1 * q.val = q.val; omega

/-! ## The output array -/

/-- The middle layer of the arrays the region finds. -/
def G (c : Dev nD) : S50000x128.Idx → EReal :=
  midArr (V c main_v32) (V c main_v42) (V c main_v8) (V c main_v44) (V c main_v46) (V c main_v49) (V c main_v52) (V c main_v55)

/-- What point `t` writes back is block `t` of `G`. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  funext j
  obtain ⟨p, q, rfl⟩ : ∃ (p : Fin 5000) (q : Fin 128), j = ix2 p q := ⟨j 0, j 1, eq_ix2 j⟩
  obtain ⟨-, -, -, -, -, -, -, -, -, -, -, -, -, -, -, -, e, e'⟩ := idx_facts t
  show out1_8 (iblk1 V c 0 t) (iblk1 V c 1 t) (iblk1 V c 2 t) (iblk1 V c 3 t) (iblk1 V c 4 t) (iblk1 V c 5 t) (iblk1 V c 6 t) (iblk1 V c 7 t) (ix2 p q)
    = G V c (((cfg1.win 8).blk t).view.emb (ix2 p q))
  have hemb : ((cfg1.win 8).blk t).view.emb (ix2 p q) = (ix2 (rowAt t p) q : S50000x128.Idx) := funext fun a => Fin.ext (by
    match a with
    | ⟨0, _⟩ => show win1_8.index t (0 : Fin 2) * 5000 + 1 * p.val = t.val * 5000 + p.val; omega
    | ⟨1, _⟩ => show win1_8.index t (1 : Fin 2) * 128 + 1 * q.val = q.val; omega)
  rw [hemb]
  refine (out_apply _ _ _ _ _ _ _ _ p q).trans ?_
  show _ = midRow (rowOf (V c main_v32) (rowAt t p)) (rowOf (V c main_v42) (rowAt t p)) ((V c main_v8 : S50000x1.Idx → EReal) (ix2 (rowAt t p) (0 : Fin 1)))
    (matOf (V c main_v44)) (matOf (V c main_v46)) (vecOf (V c main_v49)) (vecOf (V c main_v52)) (vecOf (V c main_v55)) q
  have h0 : rowOf (iblk1 V c 0 t) p = rowOf (V c main_v32) (rowAt t p) := funext fun k => blk_0 V c t p k
  have h1 : rowOf (iblk1 V c 1 t) p = rowOf (V c main_v42) (rowAt t p) := funext fun k => blk_1 V c t p k
  have h3 : matOf (iblk1 V c 3 t) = matOf (V c main_v44) := funext fun k => funext fun q' => blk_3 V c t k q'
  have h4 : matOf (iblk1 V c 4 t) = matOf (V c main_v46) := funext fun k => funext fun q' => blk_4 V c t k q'
  have h5 : vecOf (iblk1 V c 5 t) = vecOf (V c main_v49) := funext fun q' => blk_5 V c t q'
  have h6 : vecOf (iblk1 V c 6 t) = vecOf (V c main_v52) := funext fun q' => blk_6 V c t q'
  have h7 : vecOf (iblk1 V c 7 t) = vecOf (V c main_v55) := funext fun q' => blk_7 V c t q'
  rw [h0, h1, h3, h4, h5, h6, h7, blk_2 V c t p]

/-- An index of the array is in point `t`'s output block iff each coordinate is in the block's range on its axis. -/
theorem mem_blk (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v56).slice (win1_8.rect t)).set ↔ _
  rw [View.set_slice_whole, Rect.mem_set_unit]
  exact Iff.rfl

/-- Every row is in the block of the point its number divided by 5000 names. -/
theorem cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_8 _, ?_⟩
  rw [mem_blk]
  obtain ⟨-, -, -, -, -, -, -, -, -, -, -, -, -, -, -, -, e, e'⟩ := idx_facts ⟨(i 0).val / 5000, by rw [hN]; omega⟩
  intro a
  match a with
  | ⟨0, _⟩ =>
    show win1_8.index ⟨(i 0).val / 5000, _⟩ (0 : Fin 2) * 5000 ≤ (i 0).val ∧ (i 0).val < win1_8.index ⟨(i 0).val / 5000, _⟩ (0 : Fin 2) * 5000 + 5000
    rw [e]; show (i 0).val / 5000 * 5000 ≤ (i 0).val ∧ (i 0).val < (i 0).val / 5000 * 5000 + 5000; omega
  | ⟨1, _⟩ =>
    show win1_8.index ⟨(i 0).val / 5000, _⟩ (1 : Fin 2) * 128 ≤ (i 1).val ∧ (i 1).val < win1_8.index ⟨(i 0).val / 5000, _⟩ (1 : Fin 2) * 128 + 128
    rw [e']; omega

/-- The output array after the region: the middle layer of the arrays it found. -/
theorem final (c : Dev nD) : (dat1 V c).arrAt 8 cfg1.N = G V c :=
  (dat1 V c).arrAt_eq_of_cover 8 (G V c) (fun t _ => flushed_eq V c t) (cover)

end Cert.KernelIdeal.KVal1

end
-- ==== Proof.KVal2.lean ====
/-
  Region 2 (the last layer's grid): the two arrays its output windows leave.

  Point `t` of the ten is handed rows `5000·t … 5000·t + 4999` of the features, of the neighbour sums and of the
  reciprocal-degree column, and the whole of the two weight matrices, the bias row, the output matrix and the output bias
  row; it writes back the same rows of the embedding and of the class scores.  What it writes are the convolution's rows
  and their scores, so each output's blocks are the restrictions of one whole-array function, `convArr` (resp. `logitArr`
  of it) of the arrays as the region finds them, and the ten blocks cover each array.
-/
import proofs.«107849_j42949672960221_2_alg».proof.Proof.Gen.KernelIdeal.Frame
import proofs.«107849_j42949672960221_2_alg».proof.Proof.KPay

set_option maxRecDepth 16384

noncomputable section

namespace Cert.KernelIdeal.KVal2

open Cert.KernelIdeal Cert.KernelIdeal.Gen Cert.KernelIdeal.KPay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored embedding block at an element: the convolution's row of the loaded blocks' row. -/
theorem emb_apply (x0 x1 : Vec Ideal S5000x128 .f32) (x2 : Vec Ideal S5000x1 .f32) (x3 x4 : Vec Ideal S128x128 .f32)
    (x5 : Vec Ideal S1x128 .f32) (x6 : Vec Ideal S128x64 .f32) (x7 : Vec Ideal S1x64 .f32) (p : Fin 5000) (q : Fin 128) :
    out2_8 x0 x1 x2 x3 x4 x5 x6 x7 (ix2 p q)
      = convRow (rowOf x0 p) (rowOf x1 p) (x2 (ix2 p (0 : Fin 1))) (matOf x3) (matOf x4) (vecOf x5) q := by
  unfold out2_8
  rw [View.canon_unit_zero hz]
  simp only [View.ld_unit_zero (S := S5000x128) hz, View.ld_unit_zero (S := S5000x1) hz, View.ld_unit_zero (S := S128x128) hz,
    View.ld_unit_zero (S := S1x128) hz]
  rw [k2_emb, convBlk_apply]

/-- The stored score block at an element: the scores of the convolution's row. -/
theorem scores_apply (x0 x1 : Vec Ideal S5000x128 .f32) (x2 : Vec Ideal S5000x1 .f32) (x3 x4 : Vec Ideal S128x128 .f32)
    (x5 : Vec Ideal S1x128 .f32) (x6 : Vec Ideal S128x64 .f32) (x7 : Vec Ideal S1x64 .f32) (p : Fin 5000) (q : Fin 64) :
    out2_9 x0 x1 x2 x3 x4 x5 x6 x7 (ix2 p q)
      = logitRow (convRow (rowOf x0 p) (rowOf x1 p) (x2 (ix2 p (0 : Fin 1))) (matOf x3) (matOf x4) (vecOf x5)) (matOf x6) (vecOf x7) q := by
  unfold out2_9
  rw [View.canon_unit_zero hz]
  simp only [View.ld_unit_zero (S := S5000x128) hz, View.ld_unit_zero (S := S5000x1) hz, View.ld_unit_zero (S := S128x128) hz,
    View.ld_unit_zero (S := S1x128) hz, View.ld_unit_zero (S := S128x64) hz, View.ld_unit_zero (S := S1x64) hz]
  rw [k2_scores, logitBlk_apply, rowOf_conv]

/-- The printed index maps over the grid: the three row windows and the two outputs move with the point, the others stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

theorem t_lt (t : Fin cfg2.N) : t.val < 10 := by
  have h : t.val < cfg2.N := t.isLt
  have hN : cfg2.N = 10 := N_2
  omega

/-- Row `p` of point `t`'s block is row `5000·t + p` of the array. -/
def rowAt (t : Fin cfg2.N) (p : Fin 5000) : Fin 50000 := ⟨t.val * 5000 + p.val, by have := t_lt t; have := p.isLt; omega⟩

/-! ## The windows' blocks read at an element -/

theorem blk_0 (c : Dev nD) (t : Fin cfg2.N) (p : Fin 5000) (k : Fin 128) :
    iblk2 V c 0 t (ix2 p k) = (V c main_v56 : S50000x128.Idx → EReal) (ix2 (rowAt t p) k) := by
  obtain ⟨e, e', -⟩ := idx_facts t
  show V c main_v56 (((cfg2.win 0).blk t).view.emb (ix2 p k)) = _
  refine congrArg (V c main_v56) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem blk_1 (c : Dev nD) (t : Fin cfg2.N) (p : Fin 5000) (k : Fin 128) :
    iblk2 V c 1 t (ix2 p k) = (V c main_v66 : S50000x128.Idx → EReal) (ix2 (rowAt t p) k) := by
  obtain ⟨-, -, e, e', -⟩ := idx_facts t
  show V c main_v66 (((cfg2.win 1).blk t).view.emb (ix2 p k)) = _
  refine congrArg (V c main_v66) (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

theorem blk_2 (c : Dev nD) (t : Fin cfg2.N) (p : Fin 5000) :
    iblk2 V c 2 t (ix2 p (0 : Fin 1)) = (V c main_v8 : S50000x1.Idx → EReal) (ix2 (rowAt t p) (0 : Fin 1)) := by
  obtain ⟨-, -, -, -, e, e', -⟩ := idx_facts t
  show V c main_v8 (((cfg2.win 2).blk t).view.emb (ix2 p (0 : Fin 1))) = _
  refine congrArg (V c main_v8) (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * 0 = 0; omega

theorem blk_3 (c : Dev nD) (t : Fin cfg2.N) (k : Fin 128) (q : Fin 128) :
    iblk2 V c 3 t (ix2 k q) = (V c main_v68 : S128x128.Idx → EReal) (ix2 k q) := by
  obtain ⟨-, -, -, -, -, -, e, e', -⟩ := idx_facts t
  show V c main_v68 (((cfg2.win 3).blk t).view.emb (ix2 k q)) = _
  refine congrArg (V c main_v68) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem blk_4 (c : Dev nD) (t : Fin cfg2.N) (k : Fin 128) (q : Fin 128) :
    iblk2 V c 4 t (ix2 k q) = (V c main_v70 : S128x128.Idx → EReal) (ix2 k q) := by
  obtain ⟨-, -, -, -, -, -, -, -, e, e', -⟩ := idx_facts t
  show V c main_v70 (((cfg2.win 4).blk t).view.emb (ix2 k q)) = _
  refine congrArg (V c main_v70) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

theorem blk_5 (c : Dev nD) (t : Fin cfg2.N) (q : Fin 128) :
    iblk2 V c 5 t (ix2 (0 : Fin 1) q) = (V c main_v73 : S1x128.Idx → EReal) (ix2 (0 : Fin 1) q) := by
  obtain ⟨-, -, -, -, -, -, -, -, -, -, e, e', -⟩ := idx_facts t
  show V c main_v73 (((cfg2.win 5).blk t).view.emb (ix2 (0 : Fin 1) q)) = _
  refine congrArg (V c main_v73) (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

theorem blk_6 (c : Dev nD) (t : Fin cfg2.N) (k : Fin 128) (q : Fin 64) :
    iblk2 V c 6 t (ix2 k q) = (V c main_arg8 : S128x64.Idx → EReal) (ix2 k q) := by
  obtain ⟨-, -, -, -, -, -, -, -, -, -, -, -, e, e', -⟩ := idx_facts t
  show V c main_arg8 (((cfg2.win 6).blk t).view.emb (ix2 k q)) = _
  refine congrArg (V c main_arg8) (funext fun a => Fin.ext ?_)
  match a with
  | ⟨0, _⟩ => show win2_6.index t (0 : Fin 2) * 128 + 1 * k.val = k.val; omega
  | ⟨1, _⟩ => show win2_6.index t (1 : Fin 2) * 64 + 1 * q.val = q.val; omega

theorem blk_7 (c : Dev nD) (t : Fin cfg2.N) (q : Fin 64) :
    iblk2 V c 7 t (ix2 (0 : Fin 1) q) = (V c main_v74 : S1x64.Idx → EReal) (ix2 (0 : Fin 1) q) := by
  obtain ⟨-, -, -, -, -, -, -, -, -, -, -, -, -, -, e, e', -⟩ := idx_facts t
  show V c main_v74 (((cfg2.win 7).blk t).view.emb (ix2 (0 : Fin 1) q)) = _
  refine congrArg (V c main_v74) (funext fun a => Fin.ext ?_)
  match a with
  | ⟨0, _⟩ => show win2_7.index t (0 : Fin 2) * 1 + 1 * 0 = 0; omega
  | ⟨1, _⟩ => show win2_7.index t (1 : Fin 2) * 64 + 1 * q.val = q.val; omega

/-! ## The embedding array -/

/-- The convolution of the arrays the region finds. -/
def embArr (c : Dev nD) : S50000x128.Idx → EReal :=
  convArr (V c main_v56) (V c main_v66) (V c main_v8) (V c main_v68) (V c main_v70) (V c main_v73)

/-- The class scores of that convolution. -/
def scoreArr (c : Dev nD) : S50000x64.Idx → EReal :=
  logitArr (embArr V c) (V c main_arg8) (V c main_v74)

theorem rows_eq (c : Dev nD) (t : Fin cfg2.N) (p : Fin 5000) :
    convRow (rowOf (iblk2 V c 0 t) p) (rowOf (iblk2 V c 1 t) p) (iblk2 V c 2 t (ix2 p (0 : Fin 1))) (matOf (iblk2 V c 3 t))
        (matOf (iblk2 V c 4 t)) (vecOf (iblk2 V c 5 t))
      = convRow (rowOf (V c main_v56) (rowAt t p)) (rowOf (V c main_v66) (rowAt t p))
        ((V c main_v8 : S50000x1.Idx → EReal) (ix2 (rowAt t p) (0 : Fin 1))) (matOf (V c main_v68)) (matOf (V c main_v70)) (vecOf (V c main_v73)) := by
  have h0 : rowOf (iblk2 V c 0 t) p = rowOf (V c main_v56) (rowAt t p) := funext fun k => blk_0 V c t p k
  have h1 : rowOf (iblk2 V c 1 t) p = rowOf (V c main_v66) (rowAt t p) := funext fun k => blk_1 V c t p k
  have h3 : matOf (iblk2 V c 3 t) = matOf (V c main_v68) := funext fun k => funext fun q' => blk_3 V c t k q'
  have h4 : matOf (iblk2 V c 4 t) = matOf (V c main_v70) := funext fun k => funext fun q' => blk_4 V c t k q'
  have h5 : vecOf (iblk2 V c 5 t) = vecOf (V c main_v73) := funext fun q' => blk_5 V c t q'
  rw [h0, h1, h3, h4, h5, blk_2 V c t p]

/-- What point `t` writes back to the embedding is block `t` of `embArr`. -/
theorem flushedE_eq (c : Dev nD) (t : Fin cfg2.N) :
    (dat2 V c).flushed 8 t = ((cfg2.win 8).blk t).view.read (Elt Ideal) (embArr V c) := by
  show (cfg2.win 8).cut (grid2.coords t) ((dat2 V c).after 8 t) = _
  rw [after2_8]
  funext j
  obtain ⟨p, q, rfl⟩ : ∃ (p : Fin 5000) (q : Fin 128), j = ix2 p q := ⟨j 0, j 1, eq_ix2 j⟩
  obtain ⟨-, -, -, -, -, -, -, -, -, -, -, -, -, -, -, -, e, e', -⟩ := idx_facts t
  show out2_8 (iblk2 V c 0 t) (iblk2 V c 1 t) (iblk2 V c 2 t) (iblk2 V c 3 t) (iblk2 V c 4 t) (iblk2 V c 5 t) (iblk2 V c 6 t) (iblk2 V c 7 t) (ix2 p q)
    = embArr V c (((cfg2.win 8).blk t).view.emb (ix2 p q))
  have hemb : ((cfg2.win 8).blk t).view.emb (ix2 p q) = (ix2 (rowAt t p) q : S50000x128.Idx) := funext fun a => Fin.ext (by
    match a with
    | ⟨0, _⟩ => show win2_8.index t (0 : Fin 2) * 5000 + 1 * p.val = t.val * 5000 + p.val; omega
    | ⟨1, _⟩ => show win2_8.index t (1 : Fin 2) * 128 + 1 * q.val = q.val; omega)
  rw [hemb]
  refine (emb_apply _ _ _ _ _ _ _ _ p q).trans ?_
  rw [rows_eq]
  rfl

theorem memE_blk (t : Fin cfg2.N) (i : S50000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v75_0).slice (win2_8.rect t)).set ↔ _
  rw [View.set_slice_whole, Rect.mem_set_unit]
  exact Iff.rfl

theorem coverE (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_8 _, ?_⟩
  rw [memE_blk]
  obtain ⟨-, -, -, -, -, -, -, -, -, -, -, -, -, -, -, -, e, e', -⟩ := idx_facts ⟨(i 0).val / 5000, by rw [hN]; omega⟩
  intro a
  match a with
  | ⟨0, _⟩ =>
    show win2_8.index ⟨(i 0).val / 5000, _⟩ (0 : Fin 2) * 5000 ≤ (i 0).val ∧ (i 0).val < win2_8.index ⟨(i 0).val / 5000, _⟩ (0 : Fin 2) * 5000 + 5000
    rw [e]; show (i 0).val / 5000 * 5000 ≤ (i 0).val ∧ (i 0).val < (i 0).val / 5000 * 5000 + 5000; omega
  | ⟨1, _⟩ =>
    show win2_8.index ⟨(i 0).val / 5000, _⟩ (1 : Fin 2) * 128 ≤ (i 1).val ∧ (i 1).val < win2_8.index ⟨(i 0).val / 5000, _⟩ (1 : Fin 2) * 128 + 128
    rw [e']; omega

/-- The embedding array after the region. -/
theorem finalE (c : Dev nD) : (dat2 V c).arrAt 8 cfg2.N = embArr V c :=
  (dat2 V c).arrAt_eq_of_cover 8 (embArr V c) (fun t _ => flushedE_eq V c t) (coverE)

/-! ## The class-score array -/

/-- What point `t` writes back to the scores is block `t` of `scoreArr`. -/
theorem flushedL_eq (c : Dev nD) (t : Fin cfg2.N) :
    (dat2 V c).flushed 9 t = ((cfg2.win 9).blk t).view.read (Elt Ideal) (scoreArr V c) := by
  show (cfg2.win 9).cut (grid2.coords t) ((dat2 V c).after 9 t) = _
  rw [after2_9]
  funext j
  obtain ⟨p, q, rfl⟩ : ∃ (p : Fin 5000) (q : Fin 64), j = ix2 p q := ⟨j 0, j 1, eq_ix2 j⟩
  obtain ⟨-, -, -, -, -, -, -, -, -, -, -, -, -, -, -, -, -, -, e, e'⟩ := idx_facts t
  show out2_9 (iblk2 V c 0 t) (iblk2 V c 1 t) (iblk2 V c 2 t) (iblk2 V c 3 t) (iblk2 V c 4 t) (iblk2 V c 5 t) (iblk2 V c 6 t) (iblk2 V c 7 t) (ix2 p q)
    = scoreArr V c (((cfg2.win 9).blk t).view.emb (ix2 p q))
  have hemb : ((cfg2.win 9).blk t).view.emb (ix2 p q) = (ix2 (rowAt t p) q : S50000x64.Idx) := funext fun a => Fin.ext (by
    match a with
    | ⟨0, _⟩ => show win2_9.index t (0 : Fin 2) * 5000 + 1 * p.val = t.val * 5000 + p.val; omega
    | ⟨1, _⟩ => show win2_9.index t (1 : Fin 2) * 64 + 1 * q.val = q.val; omega)
  rw [hemb]
  refine (scores_apply _ _ _ _ _ _ _ _ p q).trans ?_
  have h6 : matOf (iblk2 V c 6 t) = matOf (V c main_arg8) := funext fun k => funext fun q' => blk_6 V c t k q'
  have h7 : vecOf (iblk2 V c 7 t) = vecOf (V c main_v74) := funext fun q' => blk_7 V c t q'
  rw [rows_eq, h6, h7]
  rfl

theorem memL_blk (t : Fin cfg2.N) (i : S50000x64.Idx) :
    i ∈ ((cfg2.win 9).blk t).view.set ↔ ∀ a : Fin 2, win2_9.index t a * S5000x64.size a ≤ (i a).val ∧ (i a).val < win2_9.index t a * S5000x64.size a + S5000x64.size a := by
  show i ∈ ((View.whole main_v75_1).slice (win2_9.rect t)).set ↔ _
  rw [View.set_slice_whole, Rect.mem_set_unit]
  exact Iff.rfl

theorem coverL (i : S50000x64.Idx) :
    ∃ t : Fin cfg2.N, (cfg2.win 9).flush t = true ∧ i ∈ ((cfg2.win 9).blk t).view.set := by
  have hi0 : (i 0).val < 50000 := (i 0).isLt
  have hi1 : (i 1).val < 64 := (i 1).isLt
  have hN : cfg2.N = 10 := N_2
  refine ⟨⟨(i 0).val / 5000, by rw [hN]; omega⟩, flush2_9 _, ?_⟩
  rw [memL_blk]
  obtain ⟨-, -, -, -, -, -, -, -, -, -, -, -, -, -, -, -, -, -, e, e'⟩ := idx_facts ⟨(i 0).val / 5000, by rw [hN]; omega⟩
  intro a
  match a with
  | ⟨0, _⟩ =>
    show win2_9.index ⟨(i 0).val / 5000, _⟩ (0 : Fin 2) * 5000 ≤ (i 0).val ∧ (i 0).val < win2_9.index ⟨(i 0).val / 5000, _⟩ (0 : Fin 2) * 5000 + 5000
    rw [e]; show (i 0).val / 5000 * 5000 ≤ (i 0).val ∧ (i 0).val < (i 0).val / 5000 * 5000 + 5000; omega
  | ⟨1, _⟩ =>
    show win2_9.index ⟨(i 0).val / 5000, _⟩ (1 : Fin 2) * 64 ≤ (i 1).val ∧ (i 1).val < win2_9.index ⟨(i 0).val / 5000, _⟩ (1 : Fin 2) * 64 + 64
    rw [e']; omega

/-- The class-score array after the region. -/
theorem finalL (c : Dev nD) : (dat2 V c).arrAt 9 cfg2.N = scoreArr V c :=
  (dat2 V c).arrAt_eq_of_cover 9 (scoreArr V c) (fun t _ => flushedL_eq V c t) (coverL)

end Cert.KernelIdeal.KVal2

end
-- ==== Proof.LibColRow.lean ====
/-
  A vector laid out as a column or as a row: the reshape and the broadcast in one dimension agree.

  An `[n]` array becomes an `[n, 1]` column either by a reshape or by a broadcast that sends its axis to axis 0; it becomes
  a `[1, n]` row either by a reshape or by a broadcast that sends its axis to axis 1.  Either way the entry at `(p, u)`
  (resp. `(u, q)`) is the vector's entry at `p` (resp. `q`), so the two arrays are equal.
-/
import Idealize.ShloMosaic.Lib.Pipeline.Value
import Idealize.ShloMosaic.Lib.ValueIdx
import Idealize.ShloMosaic.Lib.ValueLayout

namespace Cert.LibColRow

open Idealize.ShloMosaic Idealize.ShloMosaic.ValueIdx

variable {α : Type}

/-- The column `[n, 1]` broadcast from `[n]` along axis 0 reads, at `(p, u)`, the vector at `p`. -/
theorem broadcastInDim_col_apply {n : ℕ} (v : (⟨1, ![n]⟩ : Shape).Idx → α)
    (hb : (⟨1, ![n]⟩ : Shape).BroadcastsInDim ⟨2, ![n, 1]⟩ ![0]) (p : Fin n) (u : Fin 1) :
    broadcastInDim ⟨2, ![n, 1]⟩ ![0] hb v (ix2 p u) = v (ix1 p) :=
  broadcastInDim_apply ![0] hb v (ix2 p u) (ix1 p) fun a => by
    match a with
    | ⟨0, _⟩ =>
      show p.val = if n = 1 then 0 else p.val
      split
      · have := p.isLt; omega
      · rfl

/-- The row `[1, n]` broadcast from `[n]` along axis 1 reads, at `(u, q)`, the vector at `q`. -/
theorem broadcastInDim_row_apply {n : ℕ} (v : (⟨1, ![n]⟩ : Shape).Idx → α)
    (hb : (⟨1, ![n]⟩ : Shape).BroadcastsInDim ⟨2, ![1, n]⟩ ![1]) (u : Fin 1) (q : Fin n) :
    broadcastInDim ⟨2, ![1, n]⟩ ![1] hb v (ix2 u q) = v (ix1 q) :=
  broadcastInDim_apply ![1] hb v (ix2 u q) (ix1 q) fun a => by
    match a with
    | ⟨0, _⟩ =>
      show q.val = if n = 1 then 0 else q.val
      split
      · have := q.isLt; omega
      · rfl

/-- A vector reshaped to a column reads, at `(p, u)`, the vector at `p`. -/
theorem shapeCast_col_apply {n : ℕ} (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A vector reshaped to a column is the vector broadcast along axis 0. -/
theorem shapeCast_col_eq_broadcastInDim {n : ℕ} (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext i
  obtain ⟨p, u, rfl⟩ : ∃ (p : Fin n) (u : Fin 1), i = ix2 p u := ⟨i 0, i 1, eq_ix2 i⟩
  rw [shapeCast_col_apply, broadcastInDim_col_apply]

/-- A vector reshaped to a row is the vector broadcast along axis 1. -/
theorem shapeCast_row_eq_broadcastInDim {n : ℕ} (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext i
  obtain ⟨u, q, rfl⟩ : ∃ (u : Fin 1) (q : Fin n), i = ix2 u q := ⟨i 0, i 1, eq_ix2 i⟩
  rw [shapeCast_a_1a_apply, broadcastInDim_row_apply]

end Cert.LibColRow
-- ==== Proof.KStretch0.lean ====
/-
  The host operations before the first grid, read at the buffers the first grid and the later stretches take from them.

  From any contents `X` of the buffers, the stretch leaves: the neighbour sums of the features (a gather of the source rows
  scattered and added onto the destination rows), the reciprocal clamped in-degree as a column, the first layer's two weight
  matrices, and its bias, scale and shift as rows — each the same operations of the arguments as the reference program's
  stages of the same name — and it writes none of the ten arguments.  Where this program reshapes a vector to a column or a
  row the reference broadcasts it in one dimension; the two arrays are equal.
-/
import proofs.«107849_j42949672960221_2_alg».proof.Proof.Gen.KernelIdeal.Launch
import proofs.«107849_j42949672960221_2_alg».proof.Proof.ReadP
import proofs.«107849_j42949672960221_2_alg».proof.Proof.LibColRow
import Idealize.ShloMosaic.Lib.StableHlo.Run
import Idealize.ShloMosaic.PureOps.Ideal

set_option maxRecDepth 16384

noncomputable section

namespace Cert.KernelIdeal.KStretch0

open Cert.KernelIdeal Cert.KernelIdeal.Gen
open Idealize.ShloMosaic Idealize.ShloMosaic.TcCoe Idealize.SL.Sem Idealize.ShloMosaic.StableHlo

variable (X : Valuation τ sig (Elt Ideal))

/-- The stretch writes nothing to `main_arg0`. -/
theorem keep_main_arg0 : StableHlo.after hostOps0 X (Proc.devRef .tc main_arg0) = X (Proc.devRef .tc main_arg0) := by
  dsimp only [hostOps0]
  after_results_simp

/-- The stretch writes nothing to `main_arg1`. -/
theorem keep_main_arg1 : StableHlo.after hostOps0 X (Proc.devRef .tc main_arg1) = X (Proc.devRef .tc main_arg1) := by
  dsimp only [hostOps0]
  after_results_simp

/-- The stretch writes nothing to `main_arg2`. -/
theorem keep_main_arg2 : StableHlo.after hostOps0 X (Proc.devRef .tc main_arg2) = X (Proc.devRef .tc main_arg2) := by
  dsimp only [hostOps0]
  after_results_simp

/-- The stretch writes nothing to `main_arg3`. -/
theorem keep_main_arg3 : StableHlo.after hostOps0 X (Proc.devRef .tc main_arg3) = X (Proc.devRef .tc main_arg3) := by
  dsimp only [hostOps0]
  after_results_simp

/-- The stretch writes nothing to `main_arg4`. -/
theorem keep_main_arg4 : StableHlo.after hostOps0 X (Proc.devRef .tc main_arg4) = X (Proc.devRef .tc main_arg4) := by
  dsimp only [hostOps0]
  after_results_simp

/-- The stretch writes nothing to `main_arg5`. -/
theorem keep_main_arg5 : StableHlo.after hostOps0 X (Proc.devRef .tc main_arg5) = X (Proc.devRef .tc main_arg5) := by
  dsimp only [hostOps0]
  after_results_simp

/-- The stretch writes nothing to `main_arg6`. -/
theorem keep_main_arg6 : StableHlo.after hostOps0 X (Proc.devRef .tc main_arg6) = X (Proc.devRef .tc main_arg6) := by
  dsimp only [hostOps0]
  after_results_simp

/-- The stretch writes nothing to `main_arg7`. -/
theorem keep_main_arg7 : StableHlo.after hostOps0 X (Proc.devRef .tc main_arg7) = X (Proc.devRef .tc main_arg7) := by
  dsimp only [hostOps0]
  after_results_simp

/-- The stretch writes nothing to `main_arg8`. -/
theorem keep_main_arg8 : StableHlo.after hostOps0 X (Proc.devRef .tc main_arg8) = X (Proc.devRef .tc main_arg8) := by
  dsimp only [hostOps0]
  after_results_simp

/-- The stretch writes nothing to `main_arg9`. -/
theorem keep_main_arg9 : StableHlo.after hostOps0 X (Proc.devRef .tc main_arg9) = X (Proc.devRef .tc main_arg9) := by
  dsimp only [hostOps0]
  after_results_simp
/-- The neighbour sums of the features. -/
theorem at_main_v18 : StableHlo.after hostOps0 X (Proc.devRef .tc main_v18) = Cert.ReferenceIdeal.Read.val_main_v17 (F := Ideal) (X (Proc.devRef .tc main_arg0)) (X (Proc.devRef .tc main_arg1)) (X (Proc.devRef .tc main_arg2)) := by
  dsimp only [hostOps0]
  after_results_simp
  rfl

/-- The reciprocal clamped in-degree as a column. -/
theorem at_main_v8 : StableHlo.after hostOps0 X (Proc.devRef .tc main_v8) = Cert.ReferenceIdeal.Read.val_main_v18 (F := Ideal) (X (Proc.devRef .tc main_arg2)) := by
  dsimp only [hostOps0]
  after_results_simp
  exact (show _ = shapeCast (⟨2, ![50000, 1]⟩ : Shape) (Cert.ReferenceIdeal.Read.val_main_v7 (F := Ideal) (X (Proc.devRef .tc main_arg2))) _ from rfl).trans
    (Cert.LibColRow.shapeCast_col_eq_broadcastInDim (Cert.ReferenceIdeal.Read.val_main_v7 (F := Ideal) (X (Proc.devRef .tc main_arg2))) _ _)

/-- The first layer's self weights. -/
theorem at_main_v20 : StableHlo.after hostOps0 X (Proc.devRef .tc main_v20) = Cert.ReferenceIdeal.Read.val_main_v22 (F := Ideal) (X (Proc.devRef .tc main_arg3)) := by
  dsimp only [hostOps0]
  after_results_simp
  rfl

/-- The first layer's neighbour weights. -/
theorem at_main_v22 : StableHlo.after hostOps0 X (Proc.devRef .tc main_v22) = Cert.ReferenceIdeal.Read.val_main_v25 (F := Ideal) (X (Proc.devRef .tc main_arg4)) := by
  dsimp only [hostOps0]
  after_results_simp
  rfl

/-- The first layer's bias as a row. -/
theorem at_main_v25 : StableHlo.after hostOps0 X (Proc.devRef .tc main_v25) = Cert.ReferenceIdeal.Read.val_main_v30 (F := Ideal) (X (Proc.devRef .tc main_arg5)) := by
  dsimp only [hostOps0]
  after_results_simp
  exact (show _ = shapeCast (⟨2, ![1, 128]⟩ : Shape) (Cert.ReferenceIdeal.Read.val_main_v29 (F := Ideal) (X (Proc.devRef .tc main_arg5))) _ from rfl).trans
    (Cert.LibColRow.shapeCast_row_eq_broadcastInDim (Cert.ReferenceIdeal.Read.val_main_v29 (F := Ideal) (X (Proc.devRef .tc main_arg5))) _ _)

/-- The first layer's scale as a row. -/
theorem at_main_v28 : StableHlo.after hostOps0 X (Proc.devRef .tc main_v28) = Cert.ReferenceIdeal.Read.val_main_v52 (F := Ideal) (X (Proc.devRef .tc main_arg6)) := by
  dsimp only [hostOps0]
  after_results_simp
  exact (show _ = shapeCast (⟨2, ![1, 128]⟩ : Shape) (Cert.ReferenceIdeal.Read.val_main_v36 (F := Ideal) (X (Proc.devRef .tc main_arg6))) _ from rfl).trans
    (Cert.LibColRow.shapeCast_row_eq_broadcastInDim (Cert.ReferenceIdeal.Read.val_main_v36 (F := Ideal) (X (Proc.devRef .tc main_arg6))) _ _)

/-- The first layer's shift as a row. -/
theorem at_main_v31 : StableHlo.after hostOps0 X (Proc.devRef .tc main_v31) = Cert.ReferenceIdeal.Read.val_main_v60 (F := Ideal) (X (Proc.devRef .tc main_arg7)) := by
  dsimp only [hostOps0]
  after_results_simp
  exact (show _ = shapeCast (⟨2, ![1, 128]⟩ : Shape) (Cert.ReferenceIdeal.Read.val_main_v38 (F := Ideal) (X (Proc.devRef .tc main_arg7))) _ from rfl).trans
    (Cert.LibColRow.shapeCast_row_eq_broadcastInDim (Cert.ReferenceIdeal.Read.val_main_v38 (F := Ideal) (X (Proc.devRef .tc main_arg7))) _ _)

end Cert.KernelIdeal.KStretch0

end
-- ==== Proof.KStretch1.lean ====
/-
  The host operations between the first and the second grid, read at the buffers the second grid and the later stretch
  take from them.

  From any contents `X`, the stretch leaves the neighbour sums of the first layer's output (the same gather and scatter-add
  as the reference's second layer, of whatever `X` holds at that output), the second layer's two weight matrices, and its
  bias, scale and shift as rows; it writes neither the first layer's output, nor the reciprocal-degree column, nor the
  arguments later operations read.
-/
import proofs.«107849_j42949672960221_2_alg».proof.Proof.Gen.KernelIdeal.Launch
import proofs.«107849_j42949672960221_2_alg».proof.Proof.ReadP
import proofs.«107849_j42949672960221_2_alg».proof.Proof.LibColRow
import Idealize.ShloMosaic.Lib.StableHlo.Run
import Idealize.ShloMosaic.PureOps.Ideal

set_option maxRecDepth 16384

noncomputable section

namespace Cert.KernelIdeal.KStretch1

open Cert.KernelIdeal Cert.KernelIdeal.Gen
open Idealize.ShloMosaic Idealize.ShloMosaic.TcCoe Idealize.SL.Sem Idealize.ShloMosaic.StableHlo

variable (X : Valuation τ sig (Elt Ideal))

/-- The reference's second-layer neighbour sums, of any feature array: source rows gathered, added onto destination rows. -/
def nbrSum1 (h : (⟨Cert.ReferenceIdeal.S50000x128, .f32⟩ : BufTy).Contents (Elt Ideal))
    (x1 x2 : (⟨Cert.ReferenceIdeal.S800000, .i32⟩ : BufTy).Contents (Elt Ideal)) :
    (⟨Cert.ReferenceIdeal.S50000x128, .f32⟩ : BufTy).Contents (Elt Ideal) :=
  Host.scatterAdd (F := Ideal) (φ := .f32) Cert.ReferenceIdeal.scatter_S50000x128_S800000x1_S800000x128_1_0_0_1 (Cert.ReferenceIdeal.Read.val_main_v70 (F := Ideal)) (Cert.ReferenceIdeal.Read.val_main_v71 (F := Ideal) x2)
    (Host.gather Cert.ReferenceIdeal.gather_S50000x128_S800000x1_S800000x128_1_0_n_n_0_1_1128 h (Cert.ReferenceIdeal.Read.val_main_v68 (F := Ideal) x1))

/-- The stretch writes nothing to `main_v32`. -/
theorem keep_main_v32 : StableHlo.after hostOps1 X (Proc.devRef .tc main_v32) = X (Proc.devRef .tc main_v32) := by
  dsimp only [hostOps1]
  after_results_simp

/-- The stretch writes nothing to `main_v8`. -/
theorem keep_main_v8 : StableHlo.after hostOps1 X (Proc.devRef .tc main_v8) = X (Proc.devRef .tc main_v8) := by
  dsimp only [hostOps1]
  after_results_simp

/-- The stretch writes nothing to `main_arg1`. -/
theorem keep_main_arg1 : StableHlo.after hostOps1 X (Proc.devRef .tc main_arg1) = X (Proc.devRef .tc main_arg1) := by
  dsimp only [hostOps1]
  after_results_simp

/-- The stretch writes nothing to `main_arg2`. -/
theorem keep_main_arg2 : StableHlo.after hostOps1 X (Proc.devRef .tc main_arg2) = X (Proc.devRef .tc main_arg2) := by
  dsimp only [hostOps1]
  after_results_simp

/-- The stretch writes nothing to `main_arg3`. -/
theorem keep_main_arg3 : StableHlo.after hostOps1 X (Proc.devRef .tc main_arg3) = X (Proc.devRef .tc main_arg3) := by
  dsimp only [hostOps1]
  after_results_simp

/-- The stretch writes nothing to `main_arg4`. -/
theorem keep_main_arg4 : StableHlo.after hostOps1 X (Proc.devRef .tc main_arg4) = X (Proc.devRef .tc main_arg4) := by
  dsimp only [hostOps1]
  after_results_simp

/-- The stretch writes nothing to `main_arg5`. -/
theorem keep_main_arg5 : StableHlo.after hostOps1 X (Proc.devRef .tc main_arg5) = X (Proc.devRef .tc main_arg5) := by
  dsimp only [hostOps1]
  after_results_simp

/-- The stretch writes nothing to `main_arg8`. -/
theorem keep_main_arg8 : StableHlo.after hostOps1 X (Proc.devRef .tc main_arg8) = X (Proc.devRef .tc main_arg8) := by
  dsimp only [hostOps1]
  after_results_simp

/-- The stretch writes nothing to `main_arg9`. -/
theorem keep_main_arg9 : StableHlo.after hostOps1 X (Proc.devRef .tc main_arg9) = X (Proc.devRef .tc main_arg9) := by
  dsimp only [hostOps1]
  after_results_simp
/-- The neighbour sums of the first layer's output. -/
theorem at_main_v42 : StableHlo.after hostOps1 X (Proc.devRef .tc main_v42) = nbrSum1 (X (Proc.devRef .tc main_v32)) (X (Proc.devRef .tc main_arg1)) (X (Proc.devRef .tc main_arg2)) := by
  dsimp only [hostOps1]
  after_results_simp
  rfl

/-- The second layer's self weights. -/
theorem at_main_v44 : StableHlo.after hostOps1 X (Proc.devRef .tc main_v44) = Cert.ReferenceIdeal.Read.val_main_v77 (F := Ideal) (X (Proc.devRef .tc main_arg3)) := by
  dsimp only [hostOps1]
  after_results_simp
  rfl

/-- The second layer's neighbour weights. -/
theorem at_main_v46 : StableHlo.after hostOps1 X (Proc.devRef .tc main_v46) = Cert.ReferenceIdeal.Read.val_main_v80 (F := Ideal) (X (Proc.devRef .tc main_arg4)) := by
  dsimp only [hostOps1]
  after_results_simp
  rfl

/-- The second layer's bias as a row. -/
theorem at_main_v49 : StableHlo.after hostOps1 X (Proc.devRef .tc main_v49) = Cert.ReferenceIdeal.Read.val_main_v85 (F := Ideal) (X (Proc.devRef .tc main_arg5)) := by
  dsimp only [hostOps1]
  after_results_simp
  exact (show _ = shapeCast (⟨2, ![1, 128]⟩ : Shape) (Cert.ReferenceIdeal.Read.val_main_v84 (F := Ideal) (X (Proc.devRef .tc main_arg5))) _ from rfl).trans
    (Cert.LibColRow.shapeCast_row_eq_broadcastInDim (Cert.ReferenceIdeal.Read.val_main_v84 (F := Ideal) (X (Proc.devRef .tc main_arg5))) _ _)

/-- The second layer's scale as a row. -/
theorem at_main_v52 : StableHlo.after hostOps1 X (Proc.devRef .tc main_v52) = Cert.ReferenceIdeal.Read.val_main_v107 (F := Ideal) (X (Proc.devRef .tc main_arg6)) := by
  dsimp only [hostOps1]
  after_results_simp
  exact (show _ = shapeCast (⟨2, ![1, 128]⟩ : Shape) (Cert.ReferenceIdeal.Read.val_main_v91 (F := Ideal) (X (Proc.devRef .tc main_arg6))) _ from rfl).trans
    (Cert.LibColRow.shapeCast_row_eq_broadcastInDim (Cert.ReferenceIdeal.Read.val_main_v91 (F := Ideal) (X (Proc.devRef .tc main_arg6))) _ _)

/-- The second layer's shift as a row. -/
theorem at_main_v55 : StableHlo.after hostOps1 X (Proc.devRef .tc main_v55) = Cert.ReferenceIdeal.Read.val_main_v115 (F := Ideal) (X (Proc.devRef .tc main_arg7)) := by
  dsimp only [hostOps1]
  after_results_simp
  exact (show _ = shapeCast (⟨2, ![1, 128]⟩ : Shape) (Cert.ReferenceIdeal.Read.val_main_v93 (F := Ideal) (X (Proc.devRef .tc main_arg7))) _ from rfl).trans
    (Cert.LibColRow.shapeCast_row_eq_broadcastInDim (Cert.ReferenceIdeal.Read.val_main_v93 (F := Ideal) (X (Proc.devRef .tc main_arg7))) _ _)

end Cert.KernelIdeal.KStretch1

end
-- ==== Proof.KStretch2.lean ====
/-
  The host operations between the second and the last grid, read at the buffers the last grid takes from them.

  From any contents `X`, the stretch leaves the neighbour sums of the second layer's output, the last layer's two weight
  matrices, its bias as a row and the output bias as a row; it writes neither the second layer's output, nor the
  reciprocal-degree column, nor the output matrix.
-/
import proofs.«107849_j42949672960221_2_alg».proof.Proof.Gen.KernelIdeal.Launch
import proofs.«107849_j42949672960221_2_alg».proof.Proof.ReadP
import proofs.«107849_j42949672960221_2_alg».proof.Proof.LibColRow
import Idealize.ShloMosaic.Lib.StableHlo.Run
import Idealize.ShloMosaic.PureOps.Ideal

set_option maxRecDepth 16384

noncomputable section

namespace Cert.KernelIdeal.KStretch2

open Cert.KernelIdeal Cert.KernelIdeal.Gen
open Idealize.ShloMosaic Idealize.ShloMosaic.TcCoe Idealize.SL.Sem Idealize.ShloMosaic.StableHlo

variable (X : Valuation τ sig (Elt Ideal))

/-- The reference's last-layer neighbour sums, of any feature array. -/
def nbrSum2 (h : (⟨Cert.ReferenceIdeal.S50000x128, .f32⟩ : BufTy).Contents (Elt Ideal))
    (x1 x2 : (⟨Cert.ReferenceIdeal.S800000, .i32⟩ : BufTy).Contents (Elt Ideal)) :
    (⟨Cert.ReferenceIdeal.S50000x128, .f32⟩ : BufTy).Contents (Elt Ideal) :=
  Host.scatterAdd (F := Ideal) (φ := .f32) Cert.ReferenceIdeal.scatter_S50000x128_S800000x1_S800000x128_1_0_0_1 (Cert.ReferenceIdeal.Read.val_main_v125 (F := Ideal)) (Cert.ReferenceIdeal.Read.val_main_v126 (F := Ideal) x2)
    (Host.gather Cert.ReferenceIdeal.gather_S50000x128_S800000x1_S800000x128_1_0_n_n_0_1_1128 h (Cert.ReferenceIdeal.Read.val_main_v123 (F := Ideal) x1))

/-- The stretch writes nothing to `main_v56`. -/
theorem keep_main_v56 : StableHlo.after hostOps2 X (Proc.devRef .tc main_v56) = X (Proc.devRef .tc main_v56) := by
  dsimp only [hostOps2]
  after_results_simp

/-- The stretch writes nothing to `main_v8`. -/
theorem keep_main_v8 : StableHlo.after hostOps2 X (Proc.devRef .tc main_v8) = X (Proc.devRef .tc main_v8) := by
  dsimp only [hostOps2]
  after_results_simp

/-- The stretch writes nothing to `main_arg8`. -/
theorem keep_main_arg8 : StableHlo.after hostOps2 X (Proc.devRef .tc main_arg8) = X (Proc.devRef .tc main_arg8) := by
  dsimp only [hostOps2]
  after_results_simp
/-- The neighbour sums of the second layer's output. -/
theorem at_main_v66 : StableHlo.after hostOps2 X (Proc.devRef .tc main_v66) = nbrSum2 (X (Proc.devRef .tc main_v56)) (X (Proc.devRef .tc main_arg1)) (X (Proc.devRef .tc main_arg2)) := by
  dsimp only [hostOps2]
  after_results_simp
  rfl

/-- The last layer's self weights. -/
theorem at_main_v68 : StableHlo.after hostOps2 X (Proc.devRef .tc main_v68) = Cert.ReferenceIdeal.Read.val_main_v132 (F := Ideal) (X (Proc.devRef .tc main_arg3)) := by
  dsimp only [hostOps2]
  after_results_simp
  rfl

/-- The last layer's neighbour weights. -/
theorem at_main_v70 : StableHlo.after hostOps2 X (Proc.devRef .tc main_v70) = Cert.ReferenceIdeal.Read.val_main_v135 (F := Ideal) (X (Proc.devRef .tc main_arg4)) := by
  dsimp only [hostOps2]
  after_results_simp
  rfl

/-- The last layer's bias as a row. -/
theorem at_main_v73 : StableHlo.after hostOps2 X (Proc.devRef .tc main_v73) = Cert.ReferenceIdeal.Read.val_main_v140 (F := Ideal) (X (Proc.devRef .tc main_arg5)) := by
  dsimp only [hostOps2]
  after_results_simp
  exact (show _ = shapeCast (⟨2, ![1, 128]⟩ : Shape) (Cert.ReferenceIdeal.Read.val_main_v139 (F := Ideal) (X (Proc.devRef .tc main_arg5))) _ from rfl).trans
    (Cert.LibColRow.shapeCast_row_eq_broadcastInDim (Cert.ReferenceIdeal.Read.val_main_v139 (F := Ideal) (X (Proc.devRef .tc main_arg5))) _ _)

/-- The output bias as a row. -/
theorem at_main_v74 : StableHlo.after hostOps2 X (Proc.devRef .tc main_v74) = Cert.ReferenceIdeal.Read.val_main_v145 (F := Ideal) (X (Proc.devRef .tc main_arg9)) := by
  dsimp only [hostOps2]
  after_results_simp
  exact (show _ = shapeCast (⟨2, ![1, 64]⟩ : Shape) ((X (Proc.devRef .tc main_arg9))) _ from rfl).trans
    (Cert.LibColRow.shapeCast_row_eq_broadcastInDim ((X (Proc.devRef .tc main_arg9))) _ _)

end Cert.KernelIdeal.KStretch2

end
-- ==== Proof.RefValue.lean ====
/-
  The reference program read layer by layer.

  Each of the three layers of the reference computes, for every node `p` and feature `q`, a value that depends only on
  row `p` of the layer's input, row `p` of the neighbour sums and the reciprocal degree of `p`.  Reading the program's
  operations one at a time at the index `(p, q)` gives: the two contractions `Σ_k h k · Ws k q` and
  `Σ_k (a k · iv) · Wn k q`, the bias and the residual (the convolution row); for the two middle layers the maximum
  with zero, the row mean `(Σ_k r k) / 128`, the row variance `(Σ_k (r k − μ)²) / 128`, and
  `g q · (r q − μ) · rsqrt (v + ε) + be q`; for the last layer the convolution row itself, then the class scores
  `Σ_k y k · Wo k c + bo c`.  These are the rows of the specification, so each layer's result array is the
  specification's array on the layer's own operands.  The neighbour sums and the reciprocal degrees are taken as given.
-/
import proofs.«107849_j42949672960221_2_alg».proof.Proof.ReadP
import proofs.«107849_j42949672960221_2_alg».proof.Proof.Spec

noncomputable section

open scoped BigOperators

namespace Cert.ReferenceIdeal.RefValue

open Cert.ReferenceIdeal Cert.ReferenceIdeal.Gen Cert.ReferenceIdeal.Read Cert.Sage Idealize.ShloMosaic Idealize.ShloMosaic.TcCoe
  Idealize.SL.Sem Idealize.ShloMosaic.StableHlo Idealize.ShloMosaic.ValueIdx

/-! ## Where each operation reads: the composed index at `(p, q)`, by coordinates -/

theorem lidx_v23 (p : Fin 50000) (q k : Fin 128) : lidx_main_v23 (ix2 p q) k = ix2 p k :=
  funext fun a => by match a with | ⟨0, _⟩ => rfl | ⟨1, _⟩ => rfl
theorem ridx_v23 (p : Fin 50000) (q k : Fin 128) : ridx_main_v23 (ix2 p q) k = ix2 k q :=
  funext fun a => by match a with | ⟨0, _⟩ => rfl | ⟨1, _⟩ => rfl
theorem lidx_v26 (p : Fin 50000) (q k : Fin 128) : lidx_main_v26 (ix2 p q) k = ix2 p k :=
  funext fun a => by match a with | ⟨0, _⟩ => rfl | ⟨1, _⟩ => rfl
theorem ridx_v26 (p : Fin 50000) (q k : Fin 128) : ridx_main_v26 (ix2 p q) k = ix2 k q :=
  funext fun a => by match a with | ⟨0, _⟩ => rfl | ⟨1, _⟩ => rfl
theorem lidx_v78 (p : Fin 50000) (q k : Fin 128) : lidx_main_v78 (ix2 p q) k = ix2 p k :=
  funext fun a => by match a with | ⟨0, _⟩ => rfl | ⟨1, _⟩ => rfl
theorem ridx_v78 (p : Fin 50000) (q k : Fin 128) : ridx_main_v78 (ix2 p q) k = ix2 k q :=
  funext fun a => by match a with | ⟨0, _⟩ => rfl | ⟨1, _⟩ => rfl
theorem lidx_v81 (p : Fin 50000) (q k : Fin 128) : lidx_main_v81 (ix2 p q) k = ix2 p k :=
  funext fun a => by match a with | ⟨0, _⟩ => rfl | ⟨1, _⟩ => rfl
theorem ridx_v81 (p : Fin 50000) (q k : Fin 128) : ridx_main_v81 (ix2 p q) k = ix2 k q :=
  funext fun a => by match a with | ⟨0, _⟩ => rfl | ⟨1, _⟩ => rfl
theorem lidx_v133 (p : Fin 50000) (q k : Fin 128) : lidx_main_v133 (ix2 p q) k = ix2 p k :=
  funext fun a => by match a with | ⟨0, _⟩ => rfl | ⟨1, _⟩ => rfl
theorem ridx_v133 (p : Fin 50000) (q k : Fin 128) : ridx_main_v133 (ix2 p q) k = ix2 k q :=
  funext fun a => by match a with | ⟨0, _⟩ => rfl | ⟨1, _⟩ => rfl
theorem lidx_v136 (p : Fin 50000) (q k : Fin 128) : lidx_main_v136 (ix2 p q) k = ix2 p k :=
  funext fun a => by match a with | ⟨0, _⟩ => rfl | ⟨1, _⟩ => rfl
theorem ridx_v136 (p : Fin 50000) (q k : Fin 128) : ridx_main_v136 (ix2 p q) k = ix2 k q :=
  funext fun a => by match a with | ⟨0, _⟩ => rfl | ⟨1, _⟩ => rfl
theorem lidx_v144 (p : Fin 50000) (q : Fin 64) (k : Fin 128) : lidx_main_v144 (ix2 p q) k = ix2 p k :=
  funext fun a => by match a with | ⟨0, _⟩ => rfl | ⟨1, _⟩ => rfl
theorem ridx_v144 (p : Fin 50000) (q : Fin 64) (k : Fin 128) : ridx_main_v144 (ix2 p q) k = ix2 k q :=
  funext fun a => by match a with | ⟨0, _⟩ => rfl | ⟨1, _⟩ => rfl
theorem idx_v19 (p : Fin 50000) (q : Fin 128) : idx_main_v19 (ix2 p q) = ix2 p (0 : Fin 1) :=
  funext fun a => by match a with | ⟨0, _⟩ => rfl | ⟨1, _⟩ => rfl
theorem idx_v43 (p : Fin 50000) (q : Fin 128) : idx_main_v43 (ix2 p q) = ix2 p (0 : Fin 1) :=
  funext fun a => by match a with | ⟨0, _⟩ => rfl | ⟨1, _⟩ => rfl
theorem idx_v50 (p : Fin 50000) (q : Fin 128) : idx_main_v50 (ix2 p q) = ix2 p (0 : Fin 1) :=
  funext fun a => by match a with | ⟨0, _⟩ => rfl | ⟨1, _⟩ => rfl
theorem idx_v58 (p : Fin 50000) (q : Fin 128) : idx_main_v58 (ix2 p q) = ix2 p (0 : Fin 1) :=
  funext fun a => by match a with | ⟨0, _⟩ => rfl | ⟨1, _⟩ => rfl
theorem idx_v74 (p : Fin 50000) (q : Fin 128) : idx_main_v74 (ix2 p q) = ix2 p (0 : Fin 1) :=
  funext fun a => by match a with | ⟨0, _⟩ => rfl | ⟨1, _⟩ => rfl
theorem idx_v98 (p : Fin 50000) (q : Fin 128) : idx_main_v98 (ix2 p q) = ix2 p (0 : Fin 1) :=
  funext fun a => by match a with | ⟨0, _⟩ => rfl | ⟨1, _⟩ => rfl
theorem idx_v105 (p : Fin 50000) (q : Fin 128) : idx_main_v105 (ix2 p q) = ix2 p (0 : Fin 1) :=
  funext fun a => by match a with | ⟨0, _⟩ => rfl | ⟨1, _⟩ => rfl
theorem idx_v113 (p : Fin 50000) (q : Fin 128) : idx_main_v113 (ix2 p q) = ix2 p (0 : Fin 1) :=
  funext fun a => by match a with | ⟨0, _⟩ => rfl | ⟨1, _⟩ => rfl
theorem idx_v129 (p : Fin 50000) (q : Fin 128) : idx_main_v129 (ix2 p q) = ix2 p (0 : Fin 1) :=
  funext fun a => by match a with | ⟨0, _⟩ => rfl | ⟨1, _⟩ => rfl
theorem idx_v31 (p : Fin 50000) (q : Fin 128) : idx_main_v31 (ix2 p q) = ix2 (0 : Fin 1) q :=
  funext fun a => by match a with | ⟨0, _⟩ => rfl | ⟨1, _⟩ => rfl
theorem idx_v53 (p : Fin 50000) (q : Fin 128) : idx_main_v53 (ix2 p q) = ix2 (0 : Fin 1) q :=
  funext fun a => by match a with | ⟨0, _⟩ => rfl | ⟨1, _⟩ => rfl
theorem idx_v61 (p : Fin 50000) (q : Fin 128) : idx_main_v61 (ix2 p q) = ix2 (0 : Fin 1) q :=
  funext fun a => by match a with | ⟨0, _⟩ => rfl | ⟨1, _⟩ => rfl
theorem idx_v86 (p : Fin 50000) (q : Fin 128) : idx_main_v86 (ix2 p q) = ix2 (0 : Fin 1) q :=
  funext fun a => by match a with | ⟨0, _⟩ => rfl | ⟨1, _⟩ => rfl
theorem idx_v108 (p : Fin 50000) (q : Fin 128) : idx_main_v108 (ix2 p q) = ix2 (0 : Fin 1) q :=
  funext fun a => by match a with | ⟨0, _⟩ => rfl | ⟨1, _⟩ => rfl
theorem idx_v116 (p : Fin 50000) (q : Fin 128) : idx_main_v116 (ix2 p q) = ix2 (0 : Fin 1) q :=
  funext fun a => by match a with | ⟨0, _⟩ => rfl | ⟨1, _⟩ => rfl
theorem idx_v141 (p : Fin 50000) (q : Fin 128) : idx_main_v141 (ix2 p q) = ix2 (0 : Fin 1) q :=
  funext fun a => by match a with | ⟨0, _⟩ => rfl | ⟨1, _⟩ => rfl
theorem idx_v146 (p : Fin 50000) (q : Fin 64) : idx_main_v146 (ix2 p q) = ix2 (0 : Fin 1) q :=
  funext fun a => by match a with | ⟨0, _⟩ => rfl | ⟨1, _⟩ => rfl
theorem idx_v40 (p : Fin 50000) : idx_main_v40 (ix2 p (0 : Fin 1)) = ix1 p :=
  funext fun a => by match a with | ⟨0, _⟩ => rfl
theorem idx_v47 (p : Fin 50000) : idx_main_v47 (ix2 p (0 : Fin 1)) = ix1 p :=
  funext fun a => by match a with | ⟨0, _⟩ => rfl
theorem idx_v95 (p : Fin 50000) : idx_main_v95 (ix2 p (0 : Fin 1)) = ix1 p :=
  funext fun a => by match a with | ⟨0, _⟩ => rfl
theorem idx_v102 (p : Fin 50000) : idx_main_v102 (ix2 p (0 : Fin 1)) = ix1 p :=
  funext fun a => by match a with | ⟨0, _⟩ => rfl
theorem idx_v39 (p : Fin 50000) (k : Fin 128) : idx_main_v39 (ix1 p) k = ix2 p k :=
  funext fun a => by match a with | ⟨0, _⟩ => rfl | ⟨1, _⟩ => rfl
theorem idx_v46 (p : Fin 50000) (k : Fin 128) : idx_main_v46 (ix1 p) k = ix2 p k :=
  funext fun a => by match a with | ⟨0, _⟩ => rfl | ⟨1, _⟩ => rfl
theorem idx_v94 (p : Fin 50000) (k : Fin 128) : idx_main_v94 (ix1 p) k = ix2 p k :=
  funext fun a => by match a with | ⟨0, _⟩ => rfl | ⟨1, _⟩ => rfl
theorem idx_v101 (p : Fin 50000) (k : Fin 128) : idx_main_v101 (ix1 p) k = ix2 p k :=
  funext fun a => by match a with | ⟨0, _⟩ => rfl | ⟨1, _⟩ => rfl

variable (x0 : (⟨S50000x128, .f32⟩ : BufTy).Contents (Elt Ideal)) (x1 x2 : (⟨S800000, .i32⟩ : BufTy).Contents (Elt Ideal))
  (x3 x4 : (⟨S3x128x128, .f32⟩ : BufTy).Contents (Elt Ideal)) (x5 : (⟨S3x128, .f32⟩ : BufTy).Contents (Elt Ideal))
  (x6 x7 : (⟨S2x128, .f32⟩ : BufTy).Contents (Elt Ideal)) (x8 : (⟨S128x64, .f32⟩ : BufTy).Contents (Elt Ideal))
  (x9 : (⟨S64, .f32⟩ : BufTy).Contents (Elt Ideal))

/-! ## Layer 0 -/

/-- The self term of layer 0: the contraction of row `p` of the input with column `q` of the self weights. -/
theorem self0_apply (p : Fin 50000) (q : Fin 128) :
    val_main_v23 (F := Ideal) x0 x3 (ix2 p q)
      = ∑ k : Fin 128, x0 (ix2 p k) * val_main_v22 (F := Ideal) x3 (ix2 k q) := by
  rw [val_main_v23_apply]
  refine Finset.sum_congr rfl fun k _ => ?_
  rw [lidx_v23, ridx_v23]

/-- The neighbour term of layer 0: the contraction of the mean neighbour row with column `q` of the neighbour weights. -/
theorem neigh0_apply (p : Fin 50000) (q : Fin 128) :
    val_main_v26 (F := Ideal) x0 x1 x2 x4 (ix2 p q)
      = ∑ k : Fin 128, (val_main_v17 (F := Ideal) x0 x1 x2 (ix2 p k) * val_main_v18 (F := Ideal) x2 (ix2 p (0 : Fin 1)))
          * val_main_v25 (F := Ideal) x4 (ix2 k q) := by
  rw [val_main_v26_apply]
  refine Finset.sum_congr rfl fun k _ => ?_
  rw [lidx_v26, ridx_v26, val_main_v20_apply, val_main_v19_apply, idx_v19]
  rfl

/-- The convolution of layer 0, one element: the two contractions, the bias row and the residual. -/
theorem conv0_apply (p : Fin 50000) (q : Fin 128) :
    val_main_v33 (F := Ideal) x0 x1 x2 x3 x4 x5 (ix2 p q)
      = (convRow (rowOf x0 p) (rowOf (val_main_v17 (F := Ideal) x0 x1 x2) p) (val_main_v18 (F := Ideal) x2 (ix2 p (0 : Fin 1)))
          (matOf (val_main_v22 (F := Ideal) x3)) (matOf (val_main_v25 (F := Ideal) x4)) (vecOf (val_main_v30 (F := Ideal) x5))) q := by
  rw [val_main_v33_apply, val_main_v32_apply, val_main_v27_apply, self0_apply, neigh0_apply,
    val_main_v31_apply, idx_v31]
  rfl

/-- The rectified row of layer 0. -/
theorem relu0_apply (p : Fin 50000) (q : Fin 128) :
    val_main_v34 (F := Ideal) x0 x1 x2 x3 x4 x5 (ix2 p q)
      = (reluRow (convRow (rowOf x0 p) (rowOf (val_main_v17 (F := Ideal) x0 x1 x2) p) (val_main_v18 (F := Ideal) x2 (ix2 p (0 : Fin 1)))
          (matOf (val_main_v22 (F := Ideal) x3)) (matOf (val_main_v25 (F := Ideal) x4)) (vecOf (val_main_v30 (F := Ideal) x5)))) q := by
  rw [val_main_v34_apply, conv0_apply, val_main_call0_v0_apply, val_main_call0_cst_apply]
  rfl

/-- The row sum of the rectified row of layer 0. -/
theorem sum0_apply (p : Fin 50000) :
    val_main_v39 (F := Ideal) x0 x1 x2 x3 x4 x5 (ix1 p)
      = ∑ k : Fin 128, (reluRow (convRow (rowOf x0 p) (rowOf (val_main_v17 (F := Ideal) x0 x1 x2) p) (val_main_v18 (F := Ideal) x2 (ix2 p (0 : Fin 1)))
          (matOf (val_main_v22 (F := Ideal) x3)) (matOf (val_main_v25 (F := Ideal) x4)) (vecOf (val_main_v30 (F := Ideal) x5)))) k := by
  rw [val_main_v39_apply, val_main_cst_5_apply, Ideal.ofBits_def, Ideal.ofBits_zero_f32, zero_add]
  refine Finset.sum_congr rfl fun k _ => ?_
  rw [idx_v39, relu0_apply]

/-- The row mean of layer 0, kept as a column. -/
theorem mean0_apply (p : Fin 50000) :
    val_main_v42 (F := Ideal) x0 x1 x2 x3 x4 x5 (ix2 p (0 : Fin 1))
      = meanRow (reluRow (convRow (rowOf x0 p) (rowOf (val_main_v17 (F := Ideal) x0 x1 x2) p) (val_main_v18 (F := Ideal) x2 (ix2 p (0 : Fin 1)))
          (matOf (val_main_v22 (F := Ideal) x3)) (matOf (val_main_v25 (F := Ideal) x4)) (vecOf (val_main_v30 (F := Ideal) x5)))) := by
  rw [val_main_v42_apply, val_main_v40_apply, idx_v40, sum0_apply, val_main_v41_apply, val_main_cst_6_apply]
  rfl

/-- The row sum of the squared deviations of layer 0. -/
theorem sumsq0_apply (p : Fin 50000) :
    val_main_v46 (F := Ideal) x0 x1 x2 x3 x4 x5 (ix1 p)
      = ∑ k : Fin 128, sqDev (reluRow (convRow (rowOf x0 p) (rowOf (val_main_v17 (F := Ideal) x0 x1 x2) p) (val_main_v18 (F := Ideal) x2 (ix2 p (0 : Fin 1)))
          (matOf (val_main_v22 (F := Ideal) x3)) (matOf (val_main_v25 (F := Ideal) x4)) (vecOf (val_main_v30 (F := Ideal) x5)))) (meanRow (reluRow (convRow (rowOf x0 p) (rowOf (val_main_v17 (F := Ideal) x0 x1 x2) p) (val_main_v18 (F := Ideal) x2 (ix2 p (0 : Fin 1)))
          (matOf (val_main_v22 (F := Ideal) x3)) (matOf (val_main_v25 (F := Ideal) x4)) (vecOf (val_main_v30 (F := Ideal) x5))))) k := by
  rw [val_main_v46_apply, val_main_cst_7_apply, Ideal.ofBits_def, Ideal.ofBits_zero_f32, zero_add]
  refine Finset.sum_congr rfl fun k _ => ?_
  rw [idx_v46, val_main_v45_apply, val_main_v44_apply, val_main_v43_apply, idx_v43, relu0_apply, mean0_apply]
  rfl

/-- The row variance of layer 0, kept as a column. -/
theorem var0_apply (p : Fin 50000) :
    val_main_v49 (F := Ideal) x0 x1 x2 x3 x4 x5 (ix2 p (0 : Fin 1))
      = meanRow (sqDev (reluRow (convRow (rowOf x0 p) (rowOf (val_main_v17 (F := Ideal) x0 x1 x2) p) (val_main_v18 (F := Ideal) x2 (ix2 p (0 : Fin 1)))
          (matOf (val_main_v22 (F := Ideal) x3)) (matOf (val_main_v25 (F := Ideal) x4)) (vecOf (val_main_v30 (F := Ideal) x5)))) (meanRow (reluRow (convRow (rowOf x0 p) (rowOf (val_main_v17 (F := Ideal) x0 x1 x2) p) (val_main_v18 (F := Ideal) x2 (ix2 p (0 : Fin 1)))
          (matOf (val_main_v22 (F := Ideal) x3)) (matOf (val_main_v25 (F := Ideal) x4)) (vecOf (val_main_v30 (F := Ideal) x5)))))) := by
  rw [val_main_v49_apply, val_main_v47_apply, idx_v47, sumsq0_apply, val_main_v48_apply, val_main_cst_8_apply]
  rfl

/-- Layer 0 of the reference is the middle layer of the specification on its own operands. -/
theorem layer0 :
    val_main_v62 (F := Ideal) x0 x1 x2 x3 x4 x5 x6 x7
      = midArr x0 (val_main_v17 (F := Ideal) x0 x1 x2) (val_main_v18 (F := Ideal) x2)
          (val_main_v22 (F := Ideal) x3) (val_main_v25 (F := Ideal) x4) (val_main_v30 (F := Ideal) x5)
          (val_main_v52 (F := Ideal) x6) (val_main_v60 (F := Ideal) x7) := by
  funext i
  obtain ⟨p, q, rfl⟩ : ∃ (p : Fin 50000) (q : Fin 128), i = ix2 p q := ⟨i 0, i 1, eq_ix2 i⟩
  rw [midArr_ix2, val_main_v62_apply, val_main_v59_apply, val_main_v54_apply, val_main_v53_apply, idx_v53,
    val_main_v51_apply, val_main_v50_apply, idx_v50, val_main_v58_apply, idx_v58, val_main_v57_apply,
    val_main_v56_apply, val_main_v55_apply, val_main_cst_9_apply, val_main_v61_apply, idx_v61,
    relu0_apply, mean0_apply, var0_apply]
  rfl

/-! ## Layer 1 -/

/-- The self term of layer 1: the contraction of row `p` of the input with column `q` of the self weights. -/
theorem self1_apply (p : Fin 50000) (q : Fin 128) :
    val_main_v78 (F := Ideal) x0 x1 x2 x3 x4 x5 x6 x7 (ix2 p q)
      = ∑ k : Fin 128, (val_main_v62 (F := Ideal) x0 x1 x2 x3 x4 x5 x6 x7) (ix2 p k) * val_main_v77 (F := Ideal) x3 (ix2 k q) := by
  rw [val_main_v78_apply]
  refine Finset.sum_congr rfl fun k _ => ?_
  rw [lidx_v78, ridx_v78]

/-- The neighbour term of layer 1: the contraction of the mean neighbour row with column `q` of the neighbour weights. -/
theorem neigh1_apply (p : Fin 50000) (q : Fin 128) :
    val_main_v81 (F := Ideal) x0 x1 x2 x3 x4 x5 x6 x7 (ix2 p q)
      = ∑ k : Fin 128, (val_main_v72 (F := Ideal) x0 x1 x2 x3 x4 x5 x6 x7 (ix2 p k) * val_main_v73 (F := Ideal) x2 (ix2 p (0 : Fin 1)))
          * val_main_v80 (F := Ideal) x4 (ix2 k q) := by
  rw [val_main_v81_apply]
  refine Finset.sum_congr rfl fun k _ => ?_
  rw [lidx_v81, ridx_v81, val_main_v75_apply, val_main_v74_apply, idx_v74]
  rfl

/-- The convolution of layer 1, one element: the two contractions, the bias row and the residual. -/
theorem conv1_apply (p : Fin 50000) (q : Fin 128) :
    val_main_v88 (F := Ideal) x0 x1 x2 x3 x4 x5 x6 x7 (ix2 p q)
      = (convRow (rowOf (val_main_v62 (F := Ideal) x0 x1 x2 x3 x4 x5 x6 x7) p) (rowOf (val_main_v72 (F := Ideal) x0 x1 x2 x3 x4 x5 x6 x7) p) (val_main_v73 (F := Ideal) x2 (ix2 p (0 : Fin 1)))
          (matOf (val_main_v77 (F := Ideal) x3)) (matOf (val_main_v80 (F := Ideal) x4)) (vecOf (val_main_v85 (F := Ideal) x5))) q := by
  rw [val_main_v88_apply, val_main_v87_apply, val_main_v82_apply, self1_apply, neigh1_apply,
    val_main_v86_apply, idx_v86]
  rfl

/-- The rectified row of layer 1. -/
theorem relu1_apply (p : Fin 50000) (q : Fin 128) :
    val_main_v89 (F := Ideal) x0 x1 x2 x3 x4 x5 x6 x7 (ix2 p q)
      = (reluRow (convRow (rowOf (val_main_v62 (F := Ideal) x0 x1 x2 x3 x4 x5 x6 x7) p) (rowOf (val_main_v72 (F := Ideal) x0 x1 x2 x3 x4 x5 x6 x7) p) (val_main_v73 (F := Ideal) x2 (ix2 p (0 : Fin 1)))
          (matOf (val_main_v77 (F := Ideal) x3)) (matOf (val_main_v80 (F := Ideal) x4)) (vecOf (val_main_v85 (F := Ideal) x5)))) q := by
  rw [val_main_v89_apply, conv1_apply, val_main_call1_v0_apply, val_main_call1_cst_apply]
  rfl

/-- The row sum of the rectified row of layer 1. -/
theorem sum1_apply (p : Fin 50000) :
    val_main_v94 (F := Ideal) x0 x1 x2 x3 x4 x5 x6 x7 (ix1 p)
      = ∑ k : Fin 128, (reluRow (convRow (rowOf (val_main_v62 (F := Ideal) x0 x1 x2 x3 x4 x5 x6 x7) p) (rowOf (val_main_v72 (F := Ideal) x0 x1 x2 x3 x4 x5 x6 x7) p) (val_main_v73 (F := Ideal) x2 (ix2 p (0 : Fin 1)))
          (matOf (val_main_v77 (F := Ideal) x3)) (matOf (val_main_v80 (F := Ideal) x4)) (vecOf (val_main_v85 (F := Ideal) x5)))) k := by
  rw [val_main_v94_apply, val_main_cst_13_apply, Ideal.ofBits_def, Ideal.ofBits_zero_f32, zero_add]
  refine Finset.sum_congr rfl fun k _ => ?_
  rw [idx_v94, relu1_apply]

/-- The row mean of layer 1, kept as a column. -/
theorem mean1_apply (p : Fin 50000) :
    val_main_v97 (F := Ideal) x0 x1 x2 x3 x4 x5 x6 x7 (ix2 p (0 : Fin 1))
      = meanRow (reluRow (convRow (rowOf (val_main_v62 (F := Ideal) x0 x1 x2 x3 x4 x5 x6 x7) p) (rowOf (val_main_v72 (F := Ideal) x0 x1 x2 x3 x4 x5 x6 x7) p) (val_main_v73 (F := Ideal) x2 (ix2 p (0 : Fin 1)))
          (matOf (val_main_v77 (F := Ideal) x3)) (matOf (val_main_v80 (F := Ideal) x4)) (vecOf (val_main_v85 (F := Ideal) x5)))) := by
  rw [val_main_v97_apply, val_main_v95_apply, idx_v95, sum1_apply, val_main_v96_apply, val_main_cst_14_apply]
  rfl

/-- The row sum of the squared deviations of layer 1. -/
theorem sumsq1_apply (p : Fin 50000) :
    val_main_v101 (F := Ideal) x0 x1 x2 x3 x4 x5 x6 x7 (ix1 p)
      = ∑ k : Fin 128, sqDev (reluRow (convRow (rowOf (val_main_v62 (F := Ideal) x0 x1 x2 x3 x4 x5 x6 x7) p) (rowOf (val_main_v72 (F := Ideal) x0 x1 x2 x3 x4 x5 x6 x7) p) (val_main_v73 (F := Ideal) x2 (ix2 p (0 : Fin 1)))
          (matOf (val_main_v77 (F := Ideal) x3)) (matOf (val_main_v80 (F := Ideal) x4)) (vecOf (val_main_v85 (F := Ideal) x5)))) (meanRow (reluRow (convRow (rowOf (val_main_v62 (F := Ideal) x0 x1 x2 x3 x4 x5 x6 x7) p) (rowOf (val_main_v72 (F := Ideal) x0 x1 x2 x3 x4 x5 x6 x7) p) (val_main_v73 (F := Ideal) x2 (ix2 p (0 : Fin 1)))
          (matOf (val_main_v77 (F := Ideal) x3)) (matOf (val_main_v80 (F := Ideal) x4)) (vecOf (val_main_v85 (F := Ideal) x5))))) k := by
  rw [val_main_v101_apply, val_main_cst_15_apply, Ideal.ofBits_def, Ideal.ofBits_zero_f32, zero_add]
  refine Finset.sum_congr rfl fun k _ => ?_
  rw [idx_v101, val_main_v100_apply, val_main_v99_apply, val_main_v98_apply, idx_v98, relu1_apply, mean1_apply]
  rfl

/-- The row variance of layer 1, kept as a column. -/
theorem var1_apply (p : Fin 50000) :
    val_main_v104 (F := Ideal) x0 x1 x2 x3 x4 x5 x6 x7 (ix2 p (0 : Fin 1))
      = meanRow (sqDev (reluRow (convRow (rowOf (val_main_v62 (F := Ideal) x0 x1 x2 x3 x4 x5 x6 x7) p) (rowOf (val_main_v72 (F := Ideal) x0 x1 x2 x3 x4 x5 x6 x7) p) (val_main_v73 (F := Ideal) x2 (ix2 p (0 : Fin 1)))
          (matOf (val_main_v77 (F := Ideal) x3)) (matOf (val_main_v80 (F := Ideal) x4)) (vecOf (val_main_v85 (F := Ideal) x5)))) (meanRow (reluRow (convRow (rowOf (val_main_v62 (F := Ideal) x0 x1 x2 x3 x4 x5 x6 x7) p) (rowOf (val_main_v72 (F := Ideal) x0 x1 x2 x3 x4 x5 x6 x7) p) (val_main_v73 (F := Ideal) x2 (ix2 p (0 : Fin 1)))
          (matOf (val_main_v77 (F := Ideal) x3)) (matOf (val_main_v80 (F := Ideal) x4)) (vecOf (val_main_v85 (F := Ideal) x5)))))) := by
  rw [val_main_v104_apply, val_main_v102_apply, idx_v102, sumsq1_apply, val_main_v103_apply, val_main_cst_16_apply]
  rfl

/-- Layer 1 of the reference is the middle layer of the specification on its own operands. -/
theorem layer1 :
    val_main_v117 (F := Ideal) x0 x1 x2 x3 x4 x5 x6 x7
      = midArr (val_main_v62 (F := Ideal) x0 x1 x2 x3 x4 x5 x6 x7) (val_main_v72 (F := Ideal) x0 x1 x2 x3 x4 x5 x6 x7) (val_main_v73 (F := Ideal) x2)
          (val_main_v77 (F := Ideal) x3) (val_main_v80 (F := Ideal) x4) (val_main_v85 (F := Ideal) x5)
          (val_main_v107 (F := Ideal) x6) (val_main_v115 (F := Ideal) x7) := by
  funext i
  obtain ⟨p, q, rfl⟩ : ∃ (p : Fin 50000) (q : Fin 128), i = ix2 p q := ⟨i 0, i 1, eq_ix2 i⟩
  rw [midArr_ix2, val_main_v117_apply, val_main_v114_apply, val_main_v109_apply, val_main_v108_apply, idx_v108,
    val_main_v106_apply, val_main_v105_apply, idx_v105, val_main_v113_apply, idx_v113, val_main_v112_apply,
    val_main_v111_apply, val_main_v110_apply, val_main_cst_17_apply, val_main_v116_apply, idx_v116,
    relu1_apply, mean1_apply, var1_apply]
  rfl

/-! ## Layer 2 and the class scores -/

/-- The self term of layer 2. -/
theorem self2_apply (p : Fin 50000) (q : Fin 128) :
    val_main_v133 (F := Ideal) x0 x1 x2 x3 x4 x5 x6 x7 (ix2 p q)
      = ∑ k : Fin 128, (val_main_v117 (F := Ideal) x0 x1 x2 x3 x4 x5 x6 x7) (ix2 p k) * val_main_v132 (F := Ideal) x3 (ix2 k q) := by
  rw [val_main_v133_apply]
  refine Finset.sum_congr rfl fun k _ => ?_
  rw [lidx_v133, ridx_v133]

/-- The neighbour term of layer 2. -/
theorem neigh2_apply (p : Fin 50000) (q : Fin 128) :
    val_main_v136 (F := Ideal) x0 x1 x2 x3 x4 x5 x6 x7 (ix2 p q)
      = ∑ k : Fin 128, (val_main_v127 (F := Ideal) x0 x1 x2 x3 x4 x5 x6 x7 (ix2 p k) * val_main_v128 (F := Ideal) x2 (ix2 p (0 : Fin 1)))
          * val_main_v135 (F := Ideal) x4 (ix2 k q) := by
  rw [val_main_v136_apply]
  refine Finset.sum_congr rfl fun k _ => ?_
  rw [lidx_v136, ridx_v136, val_main_v130_apply, val_main_v129_apply, idx_v129]
  rfl

/-- Layer 2 of the reference is the convolution of the specification on its own operands. -/
theorem layer2 :
    val_main_v143 (F := Ideal) x0 x1 x2 x3 x4 x5 x6 x7
      = convArr (val_main_v117 (F := Ideal) x0 x1 x2 x3 x4 x5 x6 x7) (val_main_v127 (F := Ideal) x0 x1 x2 x3 x4 x5 x6 x7) (val_main_v128 (F := Ideal) x2)
          (val_main_v132 (F := Ideal) x3) (val_main_v135 (F := Ideal) x4) (val_main_v140 (F := Ideal) x5) := by
  funext i
  obtain ⟨p, q, rfl⟩ : ∃ (p : Fin 50000) (q : Fin 128), i = ix2 p q := ⟨i 0, i 1, eq_ix2 i⟩
  rw [convArr_ix2, val_main_v143_apply, val_main_v142_apply, val_main_v137_apply, self2_apply, neigh2_apply,
    val_main_v141_apply, idx_v141]
  rfl

/-- The contraction of an embedding row with a column of the output weights. -/
theorem out_apply (p : Fin 50000) (q : Fin 64) :
    val_main_v144 (F := Ideal) x0 x1 x2 x3 x4 x5 x6 x7 x8 (ix2 p q)
      = ∑ k : Fin 128, (val_main_v143 (F := Ideal) x0 x1 x2 x3 x4 x5 x6 x7) (ix2 p k) * x8 (ix2 k q) := by
  rw [val_main_v144_apply]
  refine Finset.sum_congr rfl fun k _ => ?_
  rw [lidx_v144, ridx_v144]

/-- The class scores of the reference are the specification's scores of the embedding. -/
theorem scores :
    val_main_v147 (F := Ideal) x0 x1 x2 x3 x4 x5 x6 x7 x8 x9
      = logitArr (val_main_v143 (F := Ideal) x0 x1 x2 x3 x4 x5 x6 x7) x8 (val_main_v145 (F := Ideal) x9) := by
  funext i
  obtain ⟨p, q, rfl⟩ : ∃ (p : Fin 50000) (q : Fin 64), i = ix2 p q := ⟨i 0, i 1, eq_ix2 i⟩
  rw [logitArr_ix2, val_main_v147_apply, out_apply, val_main_v146_apply, idx_v146]
  rfl

end Cert.ReferenceIdeal.RefValue

end
-- ==== Proof.KWalk.lean ====
/-
  The idealized kernel program's buffers at each segment boundary, in the reference program's stages.

  Walking @main's six segments from the launch memory: the host operations before a grid leave, at the buffers the grid
  reads, the reference's stages of the arguments (the neighbour sums of the current features, the reciprocal degrees, the
  layer's weights, bias, scale and shift); the grid leaves, at its output, the layer's array of those inputs, which is the
  reference's stage of the same layer; the next stretch reads that output where the reference's next layer reads its own.
  So the first grid's output is `val_main_v62` of the arguments, the second's `val_main_v117`, and the last grid's two
  outputs are the embedding `val_main_v143` and the class scores `val_main_v147`.
  A host stretch and a grid write none of the arguments, and a grid writes none of its input arrays.
-/
import proofs.«107849_j42949672960221_2_alg».proof.Proof.Gen.KernelIdeal.Frame
import proofs.«107849_j42949672960221_2_alg».proof.Proof.KVal0
import proofs.«107849_j42949672960221_2_alg».proof.Proof.KVal1
import proofs.«107849_j42949672960221_2_alg».proof.Proof.KVal2
import proofs.«107849_j42949672960221_2_alg».proof.Proof.KStretch0
import proofs.«107849_j42949672960221_2_alg».proof.Proof.KStretch1
import proofs.«107849_j42949672960221_2_alg».proof.Proof.KStretch2
import proofs.«107849_j42949672960221_2_alg».proof.Proof.RefValue

set_option maxRecDepth 16384

noncomputable section

namespace Cert.KernelIdeal.KWalk

open Cert.KernelIdeal Cert.KernelIdeal.Gen Cert.Sage
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arguments at the boundaries -/

theorem W2_arg1 (c : Dev nD) : W2 m ρ c (Proc.devRef .tc main_arg1) = m ((c : Thread nD τ).loc main_arg1) :=
  (W2_of_ne m ρ c main_arg1 (by decide)).trans (KStretch0.keep_main_arg1 (W0 m ρ c))
theorem W2_arg2 (c : Dev nD) : W2 m ρ c (Proc.devRef .tc main_arg2) = m ((c : Thread nD τ).loc main_arg2) :=
  (W2_of_ne m ρ c main_arg2 (by decide)).trans (KStretch0.keep_main_arg2 (W0 m ρ c))
theorem W2_arg3 (c : Dev nD) : W2 m ρ c (Proc.devRef .tc main_arg3) = m ((c : Thread nD τ).loc main_arg3) :=
  (W2_of_ne m ρ c main_arg3 (by decide)).trans (KStretch0.keep_main_arg3 (W0 m ρ c))
theorem W2_arg4 (c : Dev nD) : W2 m ρ c (Proc.devRef .tc main_arg4) = m ((c : Thread nD τ).loc main_arg4) :=
  (W2_of_ne m ρ c main_arg4 (by decide)).trans (KStretch0.keep_main_arg4 (W0 m ρ c))
theorem W2_arg5 (c : Dev nD) : W2 m ρ c (Proc.devRef .tc main_arg5) = m ((c : Thread nD τ).loc main_arg5) :=
  (W2_of_ne m ρ c main_arg5 (by decide)).trans (KStretch0.keep_main_arg5 (W0 m ρ c))
theorem W2_arg6 (c : Dev nD) : W2 m ρ c (Proc.devRef .tc main_arg6) = m ((c : Thread nD τ).loc main_arg6) :=
  (W2_of_ne m ρ c main_arg6 (by decide)).trans (KStretch0.keep_main_arg6 (W0 m ρ c))
theorem W2_arg7 (c : Dev nD) : W2 m ρ c (Proc.devRef .tc main_arg7) = m ((c : Thread nD τ).loc main_arg7) :=
  (W2_of_ne m ρ c main_arg7 (by decide)).trans (KStretch0.keep_main_arg7 (W0 m ρ c))
theorem W2_arg8 (c : Dev nD) : W2 m ρ c (Proc.devRef .tc main_arg8) = m ((c : Thread nD τ).loc main_arg8) :=
  (W2_of_ne m ρ c main_arg8 (by decide)).trans (KStretch0.keep_main_arg8 (W0 m ρ c))
theorem W2_arg9 (c : Dev nD) : W2 m ρ c (Proc.devRef .tc main_arg9) = m ((c : Thread nD τ).loc main_arg9) :=
  (W2_of_ne m ρ c main_arg9 (by decide)).trans (KStretch0.keep_main_arg9 (W0 m ρ c))

theorem W4_arg1 (c : Dev nD) : W4 m ρ c (Proc.devRef .tc main_arg1) = m ((c : Thread nD τ).loc main_arg1) :=
  (W4_of_ne m ρ c main_arg1 (by decide)).trans ((KStretch1.keep_main_arg1 (W2 m ρ c)).trans (W2_arg1 m ρ c))
theorem W4_arg2 (c : Dev nD) : W4 m ρ c (Proc.devRef .tc main_arg2) = m ((c : Thread nD τ).loc main_arg2) :=
  (W4_of_ne m ρ c main_arg2 (by decide)).trans ((KStretch1.keep_main_arg2 (W2 m ρ c)).trans (W2_arg2 m ρ c))
theorem W4_arg3 (c : Dev nD) : W4 m ρ c (Proc.devRef .tc main_arg3) = m ((c : Thread nD τ).loc main_arg3) :=
  (W4_of_ne m ρ c main_arg3 (by decide)).trans ((KStretch1.keep_main_arg3 (W2 m ρ c)).trans (W2_arg3 m ρ c))
theorem W4_arg4 (c : Dev nD) : W4 m ρ c (Proc.devRef .tc main_arg4) = m ((c : Thread nD τ).loc main_arg4) :=
  (W4_of_ne m ρ c main_arg4 (by decide)).trans ((KStretch1.keep_main_arg4 (W2 m ρ c)).trans (W2_arg4 m ρ c))
theorem W4_arg5 (c : Dev nD) : W4 m ρ c (Proc.devRef .tc main_arg5) = m ((c : Thread nD τ).loc main_arg5) :=
  (W4_of_ne m ρ c main_arg5 (by decide)).trans ((KStretch1.keep_main_arg5 (W2 m ρ c)).trans (W2_arg5 m ρ c))
theorem W4_arg8 (c : Dev nD) : W4 m ρ c (Proc.devRef .tc main_arg8) = m ((c : Thread nD τ).loc main_arg8) :=
  (W4_of_ne m ρ c main_arg8 (by decide)).trans ((KStretch1.keep_main_arg8 (W2 m ρ c)).trans (W2_arg8 m ρ c))
theorem W4_arg9 (c : Dev nD) : W4 m ρ c (Proc.devRef .tc main_arg9) = m ((c : Thread nD τ).loc main_arg9) :=
  (W4_of_ne m ρ c main_arg9 (by decide)).trans ((KStretch1.keep_main_arg9 (W2 m ρ c)).trans (W2_arg9 m ρ c))

/-! ## The first layer -/

/-- The reciprocal-degree column when the first grid is entered. -/
theorem V1_v8 (c : Dev nD) : V1 m ρ c main_v8 = Cert.ReferenceIdeal.Read.val_main_v18 (F := Ideal) (m ((c : Thread nD τ).loc main_arg2)) := KStretch0.at_main_v8 (W0 m ρ c)

/-- The first grid's output: the reference's first layer. -/
theorem out0 (c : Dev nD) : W2 m ρ c (Proc.devRef .tc main_v32) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 8).trans ((KVal0.final (V1 m ρ) c).trans ?_)
  unfold KVal0.G
  rw [show V1 m ρ c main_arg0 = (m ((c : Thread nD τ).loc main_arg0)) from KStretch0.keep_main_arg0 (W0 m ρ c),
    show V1 m ρ c main_v18 = Cert.ReferenceIdeal.Read.val_main_v17 (F := Ideal) (m ((c : Thread nD τ).loc main_arg0)) (m ((c : Thread nD τ).loc main_arg1)) (m ((c : Thread nD τ).loc main_arg2)) from KStretch0.at_main_v18 (W0 m ρ c),
    V1_v8 m ρ c,
    show V1 m ρ c main_v20 = Cert.ReferenceIdeal.Read.val_main_v22 (F := Ideal) (m ((c : Thread nD τ).loc main_arg3)) from KStretch0.at_main_v20 (W0 m ρ c),
    show V1 m ρ c main_v22 = Cert.ReferenceIdeal.Read.val_main_v25 (F := Ideal) (m ((c : Thread nD τ).loc main_arg4)) from KStretch0.at_main_v22 (W0 m ρ c),
    show V1 m ρ c main_v25 = Cert.ReferenceIdeal.Read.val_main_v30 (F := Ideal) (m ((c : Thread nD τ).loc main_arg5)) from KStretch0.at_main_v25 (W0 m ρ c),
    show V1 m ρ c main_v28 = Cert.ReferenceIdeal.Read.val_main_v52 (F := Ideal) (m ((c : Thread nD τ).loc main_arg6)) from KStretch0.at_main_v28 (W0 m ρ c),
    show V1 m ρ c main_v31 = Cert.ReferenceIdeal.Read.val_main_v60 (F := Ideal) (m ((c : Thread nD τ).loc main_arg7)) from KStretch0.at_main_v31 (W0 m ρ c)]
  exact (Cert.ReferenceIdeal.RefValue.layer0 _ _ _ _ _ _ _ _).symm

/-- The first grid leaves the reciprocal-degree column as it found it. -/
theorem W2_v8 (c : Dev nD) : W2 m ρ c (Proc.devRef .tc main_v8) = Cert.ReferenceIdeal.Read.val_main_v18 (F := Ideal) (m ((c : Thread nD τ).loc main_arg2)) :=
  (W2_arr m ρ c 2).trans ((((dat0 (V1 m ρ) c).arrAt_in 2 rfl _).trans (A_eq0 (V1 m ρ) c 2)).trans (V1_v8 m ρ c))

/-! ## The second layer -/

theorem V3_v8 (c : Dev nD) : V3 m ρ c main_v8 = Cert.ReferenceIdeal.Read.val_main_v73 (F := Ideal) (m ((c : Thread nD τ).loc main_arg2)) :=
  (KStretch1.keep_main_v8 (W2 m ρ c)).trans (W2_v8 m ρ c)

/-- The second grid's output: the reference's second layer. -/
theorem out1 (c : Dev nD) : W4 m ρ c (Proc.devRef .tc main_v56) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 8).trans ((KVal1.final (V3 m ρ) c).trans ?_)
  unfold KVal1.G
  rw [show V3 m ρ c main_v32 = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) from (KStretch1.keep_main_v32 (W2 m ρ c)).trans (out0 m ρ c),
    show V3 m ρ c main_v42 = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) from
      (KStretch1.at_main_v42 (W2 m ρ c)).trans (by rw [out0 m ρ c, W2_arg1 m ρ c, W2_arg2 m ρ c]; rfl),
    V3_v8 m ρ c,
    show V3 m ρ c main_v44 = Cert.ReferenceIdeal.Read.val_main_v77 (F := Ideal) (m ((c : Thread nD τ).loc main_arg3)) from (KStretch1.at_main_v44 (W2 m ρ c)).trans (by rw [W2_arg3 m ρ c]),
    show V3 m ρ c main_v46 = Cert.ReferenceIdeal.Read.val_main_v80 (F := Ideal) (m ((c : Thread nD τ).loc main_arg4)) from (KStretch1.at_main_v46 (W2 m ρ c)).trans (by rw [W2_arg4 m ρ c]),
    show V3 m ρ c main_v49 = Cert.ReferenceIdeal.Read.val_main_v85 (F := Ideal) (m ((c : Thread nD τ).loc main_arg5)) from (KStretch1.at_main_v49 (W2 m ρ c)).trans (by rw [W2_arg5 m ρ c]),
    show V3 m ρ c main_v52 = Cert.ReferenceIdeal.Read.val_main_v107 (F := Ideal) (m ((c : Thread nD τ).loc main_arg6)) from (KStretch1.at_main_v52 (W2 m ρ c)).trans (by rw [W2_arg6 m ρ c]),
    show V3 m ρ c main_v55 = Cert.ReferenceIdeal.Read.val_main_v115 (F := Ideal) (m ((c : Thread nD τ).loc main_arg7)) from (KStretch1.at_main_v55 (W2 m ρ c)).trans (by rw [W2_arg7 m ρ c])]
  exact (Cert.ReferenceIdeal.RefValue.layer1 _ _ _ _ _ _ _ _).symm

/-- The second grid leaves the reciprocal-degree column as it found it. -/
theorem W4_v8 (c : Dev nD) : W4 m ρ c (Proc.devRef .tc main_v8) = Cert.ReferenceIdeal.Read.val_main_v128 (F := Ideal) (m ((c : Thread nD τ).loc main_arg2)) :=
  (W4_arr m ρ c 2).trans ((((dat1 (V3 m ρ) c).arrAt_in 2 rfl _).trans (A_eq1 (V3 m ρ) c 2)).trans (V3_v8 m ρ c))

/-! ## The last layer -/

/-- The embedding: the reference's last layer. -/
theorem outE (c : Dev nD) : W6 m ρ c (Proc.devRef .tc main_v75_0) = Cert.ReferenceIdeal.Read.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 8).trans ((KVal2.finalE (V5 m ρ) c).trans ?_)
  unfold KVal2.embArr
  rw [show V5 m ρ c main_v56 = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) from (KStretch2.keep_main_v56 (W4 m ρ c)).trans (out1 m ρ c),
    show V5 m ρ c main_v66 = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) from
      (KStretch2.at_main_v66 (W4 m ρ c)).trans (by rw [out1 m ρ c, W4_arg1 m ρ c, W4_arg2 m ρ c]; rfl),
    show V5 m ρ c main_v8 = Cert.ReferenceIdeal.Read.val_main_v128 (F := Ideal) (m ((c : Thread nD τ).loc main_arg2)) from (KStretch2.keep_main_v8 (W4 m ρ c)).trans (W4_v8 m ρ c),
    show V5 m ρ c main_v68 = Cert.ReferenceIdeal.Read.val_main_v132 (F := Ideal) (m ((c : Thread nD τ).loc main_arg3)) from (KStretch2.at_main_v68 (W4 m ρ c)).trans (by rw [W4_arg3 m ρ c]),
    show V5 m ρ c main_v70 = Cert.ReferenceIdeal.Read.val_main_v135 (F := Ideal) (m ((c : Thread nD τ).loc main_arg4)) from (KStretch2.at_main_v70 (W4 m ρ c)).trans (by rw [W4_arg4 m ρ c]),
    show V5 m ρ c main_v73 = Cert.ReferenceIdeal.Read.val_main_v140 (F := Ideal) (m ((c : Thread nD τ).loc main_arg5)) from (KStretch2.at_main_v73 (W4 m ρ c)).trans (by rw [W4_arg5 m ρ c])]
  exact (Cert.ReferenceIdeal.RefValue.layer2 _ _ _ _ _ _ _ _).symm

/-- The class scores: the reference's output projection of that embedding. -/
theorem outL (c : Dev nD) : W6 m ρ c (Proc.devRef .tc main_v75_1) = Cert.ReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 9).trans ((KVal2.finalL (V5 m ρ) c).trans ?_)
  unfold KVal2.scoreArr
  rw [show KVal2.embArr (V5 m ρ) c = Cert.ReferenceIdeal.Read.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) from
      (KVal2.finalE (V5 m ρ) c).symm.trans ((W6_arr m ρ c 8).symm.trans (outE m ρ c)),
    show V5 m ρ c main_arg8 = (m ((c : Thread nD τ).loc main_arg8)) from (KStretch2.keep_main_arg8 (W4 m ρ c)).trans (W4_arg8 m ρ c),
    show V5 m ρ c main_v74 = Cert.ReferenceIdeal.Read.val_main_v145 (F := Ideal) (m ((c : Thread nD τ).loc main_arg9)) from (KStretch2.at_main_v74 (W4 m ρ c)).trans (by rw [W4_arg9 m ρ c])]
  exact (Cert.ReferenceIdeal.RefValue.scores _ _ _ _ _ _ _ _ _ _).symm

end Cert.KernelIdeal.KWalk

end
-- ==== Proof.RefRun.lean ====
/-
  The idealized reference program's run, read back stage by stage.

  @main is 175 host operations in a line.  Every weakly fair execution terminates with each buffer at the operations'
  composed value of the launch contents; read at the two result buffers that value is the last stage of each chain — the
  class scores `val_main_v147` and the embedding `val_main_v143` of the ten arguments — and the arguments end as launched.
-/
import proofs.«107849_j42949672960221_2_alg».proof.Proof.RunP
import proofs.«107849_j42949672960221_2_alg».proof.Proof.ReadP

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxRecDepth 8192 in
set_option maxHeartbeats 70000000 in
/-- On every device, from any memory with zero counters: every weakly fair execution of @main terminates with the class
    scores and the embedding at their last stages of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147) = val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v143) = val_main_v143 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v147).trans (by after_results_simp <;> rfl),
      (h c main_v143).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RefRun

end
-- ==== Proof.lean ====
/-
  A three-layer GraphSAGE network on 50000 nodes and 800000 edges: the Pallas program against its jnp reference, over the
  extended reals.

  Both programs compute, per layer, for every node: the sum of its in-neighbours' feature rows (a gather of the source rows
  scattered and added onto the destination rows), scaled by the reciprocal of the in-degree clamped at one; the convolution
  `h·Wself + mean·Wneigh + bias + h`; and, in the first two layers, a rectification followed by a normalization of the
  row (mean and variance over the 128 features, `rsqrt` of the variance plus the same literal, scale and shift).  The last
  layer's rows are the embedding; the class scores are the embedding times the output matrix plus the output bias.
  The reference does all of this with host operations on whole arrays.  The kernel program keeps the gather, the
  scatter-add and the degree on the host and runs the dense part of each layer on a grid of ten blocks of 5000 rows.
  Every operation of the one has its counterpart in the other, in the same order and on the same literals, and a row's
  result depends on that row alone, so a grid's blocks are the restrictions of the reference's whole-array layer: the two
  programs' results are equal as extended reals, element by element, with no use of the inputs' finiteness.

  The pieces: the layer's row mathematics (Proof/Spec.lean); each kernel body's stored block read at an element
  (Proof/KPay.lean) and each grid's output array (Proof/KVal0.lean, KVal1.lean, KVal2.lean); the host stretches between the
  grids read in the reference's stages (Proof/KStretch0.lean, KStretch1.lean, KStretch2.lean) and the walk through the
  segment boundaries (Proof/KWalk.lean); the reference's stages as the same layers (Proof/RefValue.lean); the two programs'
  runs with their results named (Proof/KRun.lean, Proof/RefRun.lean).
-/
import proofs.«107849_j42949672960221_2_alg».proof.Defs
import proofs.«107849_j42949672960221_2_alg».proof.Proof.Gen.Kernel
import proofs.«107849_j42949672960221_2_alg».proof.Proof.Gen.Kernel.Frame
import proofs.«107849_j42949672960221_2_alg».proof.Proof.Gen.KernelIdeal
import proofs.«107849_j42949672960221_2_alg».proof.Proof.Gen.KernelIdeal.Frame
import proofs.«107849_j42949672960221_2_alg».proof.Proof.Gen.ReferenceIdeal
import proofs.«107849_j42949672960221_2_alg».proof.Proof.Gen.Pre_finite_inputs
import proofs.«107849_j42949672960221_2_alg».proof.Proof.KRun
import proofs.«107849_j42949672960221_2_alg».proof.Proof.KWalk
import proofs.«107849_j42949672960221_2_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- The ideal pass rewrote no operation of the kernel program. -/
theorem preserves : Cert.preserves_Kernel_KernelIdeal := trivial

/-- From memories agreeing on the arguments both programs end with the class scores at the reference's last score stage
    of the arguments and the embedding at its last layer stage: the kernel program by the walk through its segment
    boundaries, the reference by its run read back. -/
theorem algebraic : Cert.algebraic_KernelIdeal_ReferenceIdeal := by
  intro m ρ m' ρ' _ hagree
  refine ⟨fun c => Cert.ReferenceIdeal.Read.val_main_v147 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KWalk.outL m ρ c), (h c).2.1.trans (Cert.KernelIdeal.KWalk.outE m ρ c), (h c).2.2⟩)
      (Cert.KernelIdeal.KRun.run_results (F := Ideal) m ρ)
  · refine (θ_run Cert.ReferenceIdeal.defs _ _).mono (fun r h c => ?_) (Cert.ReferenceIdeal.RefRun.run (F := Ideal) m' ρ')
    obtain ⟨h0, h1, h2, h3, h4, h5, h6, h7, h8, h9⟩ := hagree c
    refine ⟨(h c).1.trans ?_, (h c).2.1.trans ?_, (h c).2.2⟩
    · rw [h0, h1, h2, h3, h4, h5, h6, h7, h8, h9]
    · rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
